-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S32 .f32) (main_arg10 : FVec F S32x64 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S32x64 .f32) (main_arg9 : FVec F S32 .f32) (main_arg10 : FVec F S32x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x800000 32) (main_arg2 : FVec F S800000 .f32) (main_arg3 : IVec S2x800000 32) (main_arg4 : FVec F S800000 .f32) (main_arg5 : FVec F S64x64 .f32) (main_arg6 : FVec F S64 .f32) (main_arg7 : FVec F S64x64 .f32) (main_arg8 : FVec F S32x64 .f32) (main_arg9 : FVec F S32 .f32) (main_arg10 : FVec F S32x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x800000 : Shape := ⟨2, ![1, 800000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S64x32 : Shape := ⟨2, ![64, 32]⟩
abbrev S1x64 : Shape := ⟨2, ![1, 64]⟩
abbrev S100000x32 : Shape := ⟨2, ![100000, 32]⟩
abbrev S4000x64 : Shape := ⟨2, ![4000, 64]⟩
abbrev S4000x32 : Shape := ⟨2, ![4000, 32]⟩
abbrev S1600000x32 : Shape := ⟨2, ![1600000, 32]⟩
abbrev S1x32 : Shape := ⟨2, ![1, 32]⟩

abbrev nBuf : Space → Nat
  | .hbm => 74
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S800000, .f32⟩
  | .hbm, ⟨3, _⟩ => ⟨S2x800000, .i32⟩
  | .hbm, ⟨4, _⟩ => ⟨S800000, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S1600000, .i32⟩
  | .hbm, ⟨20, _⟩ => ⟨S1600000, .i32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S64x64, .f32⟩
  | .hbm, ⟨47, _⟩ => ⟨S64x64, .bf16⟩
  | .hbm, ⟨48, _⟩ => ⟨S64x64, .f32⟩
  | .hbm, ⟨49, _⟩ => ⟨S64x64, .bf16⟩
  | .hbm, ⟨50, _⟩ => ⟨S64x32, .f32⟩
  | .hbm, ⟨51, _⟩ => ⟨S64x32, .bf16⟩
  | .hbm, ⟨52, _⟩ => ⟨S1x64, .f32⟩
  | .hbm, ⟨53, _⟩ => ⟨S100000x64, .f32⟩
  | .hbm, ⟨54, _⟩ => ⟨S100000x32, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x32, .f32⟩
  | .hbm, ⟨64, _⟩ => ⟨S_, .f32⟩
  | .hbm, ⟨65, _⟩ => ⟨S100000x32, .f32⟩
  | .hbm, ⟨66, _⟩ => ⟨S1600000x1, .i32⟩
  | .hbm, ⟨67, _⟩ => ⟨S100000x32, .f32⟩
  | .hbm, ⟨68, _⟩ => ⟨S100000x32, .f32⟩
  | .hbm, ⟨69, _⟩ => ⟨S100000x32, .f32⟩
  | .hbm, ⟨70, _⟩ => ⟨S64x32, .f32⟩
  | .hbm, ⟨71, _⟩ => ⟨S64x32, .bf16⟩
  | .hbm, ⟨72, _⟩ => ⟨S1x32, .f32⟩
  | .hbm, ⟨73, _⟩ => ⟨S100000x32, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S64x32, .bf16⟩
  | .local _ .vmem, ⟨8, _⟩ => ⟨S4000x64, .f32⟩
  | .local _ .vmem, ⟨9, _⟩ => ⟨S4000x64, .f32⟩
  | .local _ .vmem, ⟨10, _⟩ => ⟨S4000x32, .f32⟩
  | .local _ .vmem, ⟨11, _⟩ => ⟨S4000x32, .f32⟩
  | .local _ .vmem, ⟨12, _⟩ => ⟨S4000x32, .f32⟩
  | .local _ .vmem, ⟨13, _⟩ => ⟨S4000x32, .f32⟩
  | .local _ .vmem, ⟨14, _⟩ => ⟨S4000x64, .f32⟩
  | .local _ .vmem, ⟨15, _⟩ => ⟨S4000x64, .f32⟩
  | .local _ .vmem, ⟨16, _⟩ => ⟨S64x32, .bf16⟩
  | .local _ .vmem, ⟨17, _⟩ => ⟨S1x32, .f32⟩
  | .local _ .vmem, ⟨18, _⟩ => ⟨S4000x32, .f32⟩
  | .local _ .vmem, ⟨19, _⟩ => ⟨S4000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S800000_S1600000_d0 : Shape.Concatenates [S800000, S800000] S1600000 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bitsLt_bf16_f32 : FTy.bits .bf16 < FTy.bits .f32
  transposes_S32x64_S64x32_1_0 : S32x64.Transposes [1, 0] S64x32
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S4000x32_S4000x32_0_0 : ∀ a, (![0, 0] : Fin 2 → Nat) a + S4000x32.size a ≤ S4000x32.size a
  h_S4000x32 : 0 < S4000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S32_S1x32 : S32.ShapeCasts S1x32
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x32_S4000x32_1_0_0_1_n_n_wf : DotDims.WF S4000x64 S64x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .bf16 = 32 ∨ (Rect.block (s := S64x32) S64x32.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x32.size a ≤ S100000x32.size a
  hwx0_7 : ∀ i : grid0.Coords, EltTy.bits .f32 = 32 ∨ (Rect.block (s := S100000x32) S4000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .bf16 = 32 ∨ (Rect.block (s := S64x32) S64x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x32.size a ≤ S100000x32.size a
  hwx1_4 : ∀ i : grid1.Coords, EltTy.bits .f32 = 32 ∨ (Rect.block (s := S100000x32) S4000x32.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v28) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36_0) S4000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v36_1) S4000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v48) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36_0) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S4000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S2x1600000 : Shape := ⟨2, ![2, 1600000]⟩
abbrev S1600000 : Shape := ⟨1, ![1600000]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S800000, .f32⟩
  | .hbm, ⟨3, _⟩ => ⟨S2x800000, .i32⟩
  | .hbm, ⟨4, _⟩ => ⟨S800000, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S2x1600000, .i32⟩
  | .hbm, ⟨12, _⟩ => ⟨S1600000, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S64x32, .f32⟩
  | .hbm, ⟨79, _⟩ => ⟨S100000x32, .f32⟩
  | .hbm, ⟨80, _⟩ => ⟨S1x32, .f32⟩
  | .hbm, ⟨81, _⟩ => ⟨S100000x32, .f32⟩
  | .hbm, ⟨82, _⟩ => ⟨S100000x32, .f32⟩
  | .hbm, ⟨83, _⟩ => ⟨S64x32, .f32⟩
  | .hbm, ⟨84, _⟩ => ⟨S100000x32, .f32⟩
  | .hbm, ⟨85, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  concatenates_S2x800000_S2x800000_S2x1600000_d1 : Shape.Concatenates [S2x800000, S2x800000] S2x1600000 1
  concatenates_S800000_S800000_S1600000_d0 : Shape.Concatenates [S800000, S800000] S1600000 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run with its result array named.

  The program is four segments: the host lines that build the edge lists, the in-degrees and the first
  neighbourhood mean and recast the weights; the first dense layer (a grid of 25 row blocks); the host lines
  that aggregate the projected rows; the second dense layer (25 row blocks again). Every weakly fair execution
  ends with the result array at the contents the last segment leaves, and with the eleven argument arrays as
  launched. The contents at the segment boundaries are the fold through the program that the generated frame
  module names; this module only reads one more buffer, the result's, off the last boundary.
-/
import proofs.«100433_j5497558139163_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result array holds what
    the last segment boundary holds at the result's buffer, and each argument array is as launched. -/
theorem run : θ_run defs (onTc (τ := τ) (main (F := F))) ⟨m, fun _ => 0, ρ⟩ (fun r => ∀ c : Dev nD,
      r.2.mem ((c.tc : Thread nD τ).loc main_v52) = W4 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v52 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Out

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.Payloads.lean ====
/-
  The two dense layers' block computations, read at one entry.

  The first layer's body takes a block of 4000 rows of the neighbourhood means and the same rows of the input, the
  two weight matrices already transposed (64 by 64), and the bias as one row. Entry `(p, q)` of what it stores as the
  hidden rows is `max ((∑ d, mean (p, d) · A (d, q) + ∑ d, x (p, d) · B (d, q)) + bias (0, q)) 0`; entry `(p, q)` of the
  projected rows it also stores is `∑ d, hidden (p, d) · C (d, q)` for the third matrix `C` (64 by 32). The second
  layer's body takes a block of the hidden rows, a 64 by 32 matrix, the same rows of the aggregated projected rows
  and a bias row: entry `(p, q)` of its store is `(∑ d, hidden (p, d) · R (d, q) + agg (p, q)) + bias (0, q)`.
  A change of float format is the identity on the extended reals, and a product into a zero accumulator is the
  plain sum over the contracted coordinate. Each row of a block depends on the same row of the inputs only.
-/
import proofs.«100433_j5497558139163_2_alg».proof.Proof.Gen.KernelIdeal.Skeleton
import proofs.«100433_j5497558139163_2_alg».proof.Proof.LibMatProduct
import Idealize.ShloMosaic.Lib.ValueLayout
import Idealize.ShloMosaic.Lib.Pipeline.Value

noncomputable section

open scoped BigOperators

namespace Cert.KernelIdeal.Layers

open Cert.KernelIdeal Cert.KernelIdeal.Gen Idealize.ShloMosaic Idealize.ShloMosaic.ValueIdx

/-- A block of 4000 rows times a 64 by 64 matrix, into zeros, at `(p, q)`. -/
theorem dot64 (lhs : FVec Ideal S4000x64 .bf16) (rhs : FVec Ideal S64x64 .bf16) (p : Fin 4000) (q : Fin 64) :
    matmul dot_S4000x64_S64x64_S4000x64_1_0_0_1_n_n none lhs rhs (constant S4000x64 .f32 0x00000000#32) (ix2 p q)
      = ∑ d : Fin 64, lhs (ix2 p d) * rhs (ix2 d q) :=
  Cert.LibMatProduct.matmul_zero_apply _ none rfl rfl rfl rfl rfl rfl lhs rhs p q

/-- A block of 4000 rows times a 64 by 32 matrix, into zeros, at `(p, q)`. -/
theorem dot32 (lhs : FVec Ideal S4000x64 .bf16) (rhs : FVec Ideal S64x32 .bf16) (p : Fin 4000) (q : Fin 32) :
    matmul dot_S4000x64_S64x32_S4000x32_1_0_0_1_n_n none lhs rhs (constant S4000x32 .f32 0x00000000#32) (ix2 p q)
      = ∑ d : Fin 64, lhs (ix2 p d) * rhs (ix2 d q) :=
  Cert.LibMatProduct.matmul_zero_apply _ none rfl rfl rfl rfl rfl rfl lhs rhs p q

/-- The hidden block at `(p, q)`. -/
theorem hidden_block (x0 x1 : Vec Ideal S4000x64 .f32) (x2 x3 : Vec Ideal S64x64 .bf16) (x4 : Vec Ideal S1x64 .f32)
    (p : Fin 4000) (q : Fin 64) :
    k0_pay1 (F := Ideal) x0 x1 x2 x3 x4 (ix2 p q)
      = max ((∑ d : Fin 64, x0 (ix2 p d) * x2 (ix2 d q) + ∑ d : Fin 64, x1 (ix2 p d) * x3 (ix2 d q))
          + x4 (ix2 (0 : Fin 1) q)) (Ideal.ofBits .f32 0x00000000#32) := by
  unfold k0_pay1
  simp only [shapeCast_self]
  rw [maximumf_apply, addf_apply, addf_apply, dot64, dot64, broadcastTo_1b_ab_apply]
  rfl

/-- The projected block at `(p, q)`: the hidden block's row `p` against column `q` of the third matrix. -/
theorem projected_block (x0 x1 : Vec Ideal S4000x64 .f32) (x2 x3 : Vec Ideal S64x64 .bf16) (x4 : Vec Ideal S1x64 .f32)
    (x5 : Vec Ideal S64x32 .bf16) (p : Fin 4000) (q : Fin 32) :
    k0_pay2 (F := Ideal) x0 x1 x2 x3 x4 x5 (ix2 p q)
      = ∑ d : Fin 64, k0_pay1 (F := Ideal) x0 x1 x2 x3 x4 (ix2 p d) * x5 (ix2 d q) := by
  unfold k0_pay2
  simp only [shapeCast_self]
  rw [dot32]
  rfl

/-- The output block at `(p, q)`. -/
theorem output_block (v0 : Vec Ideal S4000x64 .f32) (v3 : Vec Ideal S64x32 .bf16) (v6 : Vec Ideal S4000x32 .f32)
    (v9 : Vec Ideal S1x32 .f32) (p : Fin 4000) (q : Fin 32) :
    k1_pay1 (F := Ideal) v0 v3 v6 v9 (ix2 p q)
      = (∑ d : Fin 64, v0 (ix2 p d) * v3 (ix2 d q) + v6 (ix2 p q)) + v9 (ix2 (0 : Fin 1) q) := by
  unfold k1_pay1
  simp only [shapeCast_self]
  rw [addf_apply, addf_apply, dot32, broadcastTo_1b_ab_apply]
  rfl

end Cert.KernelIdeal.Layers

end
-- ==== Proof.Dense1.lean ====
/-
  The first dense layer as two whole arrays.

  The layer runs over 25 grid points; point `t` reads rows `4000·t … 4000·t + 3999` of the neighbourhood means and of
  the input, the whole of the three weight matrices and of the bias row, and writes back the same rows of the hidden
  array and of the projected array. A row of a block depends only on the same row of the inputs, so what point `t`
  writes back is block `t` of one function of the whole arrays: entry `(n, o)` of the hidden array is
  `max ((∑ d, M (n, d) · A (d, o) + ∑ d, X (n, d) · B (d, o)) + b (0, o)) 0`, and entry `(n, o)` of the projected array is
  `∑ d, hidden (n, d) · C (d, o)`. The 25 blocks tile the 100000 rows (row `r` is in block `r / 4000`), so after the
  last write-back each array is that function everywhere.
-/
import proofs.«100433_j5497558139163_2_alg».proof.Proof.Gen.KernelIdeal.Frame
import proofs.«100433_j5497558139163_2_alg».proof.Proof.Payloads

set_option maxRecDepth 16384

noncomputable section

open scoped BigOperators

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- A function of a row and a column as an array. -/
def asArray {a b : Nat} (f : Fin a → Fin b → EReal) : (⟨2, ![a, b]⟩ : Shape).Idx → EReal :=
  fun i => f ⟨(i 0).val, idx2_lt0 i⟩ ⟨(i 1).val, idx2_lt1 i⟩

theorem asArray_ix2 {a b : Nat} (f : Fin a → Fin b → EReal) (r : Fin a) (c : Fin b) : asArray f (ix2 r c) = f r c := rfl

/-- Entry `(n, o)` of the hidden array, from the whole input arrays (the weights as the layer receives them, already
    transposed, the bias as one row). -/
def hiddenRows (M X : S100000x64.Idx → EReal) (A B : S64x64.Idx → EReal) (b : S1x64.Idx → EReal)
    (n : Fin 100000) (o : Fin 64) : EReal :=
  max ((∑ d : Fin 64, M (ix2 n d) * A (ix2 d o) + ∑ d : Fin 64, X (ix2 n d) * B (ix2 d o)) + b (ix2 (0 : Fin 1) o))
    (Ideal.ofBits .f32 0x00000000#32)

/-- Entry `(n, o)` of the projected array: row `n` of the hidden array against column `o` of the third matrix. -/
def projectedRows (H : Fin 100000 → Fin 64 → EReal) (C : S64x32.Idx → EReal) (n : Fin 100000) (o : Fin 32) : EReal :=
  ∑ d : Fin 64, H n d * C (ix2 d o)

theorem hz : (![0, 0] : Fin 2 → Nat) = fun _ => 0 := funext fun a => by fin_cases a <;> rfl

/-- The printed index maps over the grid: a row-blocked window is at block `(t, 0)`, a whole-array window at `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The array row that row `p` of block `t` is. -/
def rowAt0 (t : Fin cfg0.N) (p : Fin 4000) : Fin 100000 :=
  ⟨4000 * t.val + p.val, by have := t.isLt; have := p.isLt; have h : cfg0.N = 25 := N_0; omega⟩

variable (V : (c : Dev nD) → (b : Ref sig .tc) → Buf (Elt Ideal) ((c : Thread nD τ).loc b))

/-! ## The input blocks read where the arrays hold them -/

theorem means_block (c : Dev nD) (t : Fin cfg0.N) (p : Fin 4000) (d : Fin 64) :
    iblk0 V c 0 t (ix2 p d) = (V c main_v28 : S100000x64.Idx → EReal) (ix2 (rowAt0 t p) d) := by
  unfold iblk0
  show (V c main_v28 : S100000x64.Idx → EReal) (((cfg0.win 0).blk t).view.emb (ix2 p d)) = _
  refine congrArg _ (funext fun a => Fin.ext ?_)
  obtain ⟨e0, e1, -⟩ := idx_facts0 t
  match a with
  | ⟨0, _⟩ => show win0_0.index t (0 : Fin 2) * 4000 + 1 * p.val = 4000 * t.val + p.val; omega
  | ⟨1, _⟩ => show win0_0.index t (1 : Fin 2) * 64 + 1 * d.val = d.val; omega

theorem input_block (c : Dev nD) (t : Fin cfg0.N) (p : Fin 4000) (d : Fin 64) :
    iblk0 V c 1 t (ix2 p d) = (V c main_arg0 : S100000x64.Idx → EReal) (ix2 (rowAt0 t p) d) := by
  unfold iblk0
  show (V c main_arg0 : S100000x64.Idx → EReal) (((cfg0.win 1).blk t).view.emb (ix2 p d)) = _
  refine congrArg _ (funext fun a => Fin.ext ?_)
  obtain ⟨-, -, e0, e1, -⟩ := idx_facts0 t
  match a with
  | ⟨0, _⟩ => show win0_1.index t (0 : Fin 2) * 4000 + 1 * p.val = 4000 * t.val + p.val; omega
  | ⟨1, _⟩ => show win0_1.index t (1 : Fin 2) * 64 + 1 * d.val = d.val; omega

theorem left_block (c : Dev nD) (t : Fin cfg0.N) (d q : Fin 64) :
    iblk0 V c 2 t (ix2 d q) = (V c main_v30 : S64x64.Idx → EReal) (ix2 d q) := by
  unfold iblk0
  show (V c main_v30 : S64x64.Idx → EReal) (((cfg0.win 2).blk t).view.emb (ix2 d q)) = _
  refine congrArg _ (funext fun a => Fin.ext ?_)
  obtain ⟨-, -, -, -, e0, e1, -⟩ := idx_facts0 t
  match a with
  | ⟨0, _⟩ => show win0_2.index t (0 : Fin 2) * 64 + 1 * d.val = d.val; omega
  | ⟨1, _⟩ => show win0_2.index t (1 : Fin 2) * 64 + 1 * q.val = q.val; omega

theorem right_block (c : Dev nD) (t : Fin cfg0.N) (d q : Fin 64) :
    iblk0 V c 3 t (ix2 d q) = (V c main_v32 : S64x64.Idx → EReal) (ix2 d q) := by
  unfold iblk0
  show (V c main_v32 : S64x64.Idx → EReal) (((cfg0.win 3).blk t).view.emb (ix2 d q)) = _
  refine congrArg _ (funext fun a => Fin.ext ?_)
  obtain ⟨-, -, -, -, -, -, e0, e1, -⟩ := idx_facts0 t
  match a with
  | ⟨0, _⟩ => show win0_3.index t (0 : Fin 2) * 64 + 1 * d.val = d.val; omega
  | ⟨1, _⟩ => show win0_3.index t (1 : Fin 2) * 64 + 1 * q.val = q.val; omega

theorem bias_block (c : Dev nD) (t : Fin cfg0.N) (q : Fin 64) :
    iblk0 V c 4 t (ix2 (0 : Fin 1) q) = (V c main_v35 : S1x64.Idx → EReal) (ix2 (0 : Fin 1) q) := by
  unfold iblk0
  show (V c main_v35 : S1x64.Idx → EReal) (((cfg0.win 4).blk t).view.emb (ix2 (0 : Fin 1) q)) = _
  refine congrArg _ (funext fun a => Fin.ext ?_)
  obtain ⟨-, -, -, -, -, -, -, -, e0, e1, -⟩ := idx_facts0 t
  match a with
  | ⟨0, _⟩ => show win0_4.index t (0 : Fin 2) * 1 + 1 * 0 = 0; omega
  | ⟨1, _⟩ => show win0_4.index t (1 : Fin 2) * 64 + 1 * q.val = q.val; omega

theorem third_block (c : Dev nD) (t : Fin cfg0.N) (d : Fin 64) (q : Fin 32) :
    iblk0 V c 5 t (ix2 d q) = (V c main_v34 : S64x32.Idx → EReal) (ix2 d q) := by
  unfold iblk0
  show (V c main_v34 : S64x32.Idx → EReal) (((cfg0.win 5).blk t).view.emb (ix2 d q)) = _
  refine congrArg _ (funext fun a => Fin.ext ?_)
  obtain ⟨-, -, -, -, -, -, -, -, -, -, e0, e1, -⟩ := idx_facts0 t
  match a with
  | ⟨0, _⟩ => show win0_5.index t (0 : Fin 2) * 64 + 1 * d.val = d.val; omega
  | ⟨1, _⟩ => show win0_5.index t (1 : Fin 2) * 32 + 1 * q.val = q.val; omega

/-- The hidden block of point `t` at `(p, q)` is the hidden array's entry at row `4000·t + p`. -/
theorem hidden_at (c : Dev nD) (t : Fin cfg0.N) (p : Fin 4000) (q : Fin 64) :
    k0_pay1 (F := Ideal) (iblk0 V c 0 t) (iblk0 V c 1 t) (iblk0 V c 2 t) (iblk0 V c 3 t) (iblk0 V c 4 t) (ix2 p q)
      = hiddenRows (V c main_v28) (V c main_arg0) (V c main_v30) (V c main_v32) (V c main_v35) (rowAt0 t p) q := by
  refine (hidden_block _ _ _ _ _ p q).trans ?_
  unfold hiddenRows
  rw [bias_block]
  refine congrArg (fun s => max (s + (V c main_v35 : S1x64.Idx → EReal) (ix2 (0 : Fin 1) q)) (Ideal.ofBits .f32 0x00000000#32)) ?_
  refine congrArg₂ (· + ·) (Finset.sum_congr rfl fun d _ => ?_) (Finset.sum_congr rfl fun d _ => ?_)
  · rw [means_block, left_block]
  · rw [input_block, right_block]

/-- The projected block of point `t` at `(p, q)` is the projected array's entry at row `4000·t + p`. -/
theorem projected_at (c : Dev nD) (t : Fin cfg0.N) (p : Fin 4000) (q : Fin 32) :
    k0_pay2 (F := Ideal) (iblk0 V c 0 t) (iblk0 V c 1 t) (iblk0 V c 2 t) (iblk0 V c 3 t) (iblk0 V c 4 t) (iblk0 V c 5 t) (ix2 p q)
      = projectedRows (hiddenRows (V c main_v28) (V c main_arg0) (V c main_v30) (V c main_v32) (V c main_v35))
          (V c main_v34) (rowAt0 t p) q := by
  refine (projected_block _ _ _ _ _ _ p q).trans ?_
  unfold projectedRows
  refine Finset.sum_congr rfl fun d _ => ?_
  rw [hidden_at, third_block]

/-! ## What each point writes back -/

/-- Entry `(p, q)` of block `t` of the hidden array sits at row `4000·t + p`. -/
theorem hidden_emb (t : Fin cfg0.N) (p : Fin 4000) (q : Fin 64) :
    ((cfg0.win 6).blk t).view.emb (ix2 p q) = (ix2 (rowAt0 t p) q : S100000x64.Idx) := by
  obtain ⟨-, -, -, -, -, -, -, -, -, -, -, -, e0, e1, -⟩ := idx_facts0 t
  funext a; apply Fin.ext
  match a with
  | ⟨0, _⟩ => show win0_6.index t (0 : Fin 2) * 4000 + 1 * p.val = 4000 * t.val + p.val; omega
  | ⟨1, _⟩ => show win0_6.index t (1 : Fin 2) * 64 + 1 * q.val = q.val; omega

/-- Entry `(p, q)` of block `t` of the projected array sits at row `4000·t + p`. -/
theorem projected_emb (t : Fin cfg0.N) (p : Fin 4000) (q : Fin 32) :
    ((cfg0.win 7).blk t).view.emb (ix2 p q) = (ix2 (rowAt0 t p) q : S100000x32.Idx) := by
  obtain ⟨-, -, -, -, -, -, -, -, -, -, -, -, -, -, e0, e1⟩ := idx_facts0 t
  funext a; apply Fin.ext
  match a with
  | ⟨0, _⟩ => show win0_7.index t (0 : Fin 2) * 4000 + 1 * p.val = 4000 * t.val + p.val; omega
  | ⟨1, _⟩ => show win0_7.index t (1 : Fin 2) * 32 + 1 * q.val = q.val; omega

/-- What point `t` writes back to the hidden array is block `t` of the hidden rows. -/
theorem hidden_flushed (c : Dev nD) (t : Fin cfg0.N) :
    (dat0 (F := Ideal) V c).flushed 6 t = ((cfg0.win 6).blk t).view.read (Elt Ideal)
      (asArray (hiddenRows (V c main_v28) (V c main_arg0) (V c main_v30) (V c main_v32) (V c main_v35))) := by
  show (cfg0.win 6).cut (grid0.coords t) ((dat0 (F := Ideal) V c).after 6 t) = _
  rw [after0_6]
  unfold out0_6
  rw [View.canon_unit_zero hz]
  simp only [View.ld_unit_zero (S := S4000x64) hz, View.ld_unit_zero (S := S64x64) hz, View.ld_unit_zero (S := S1x64) hz]
  funext j
  obtain ⟨p, q, rfl⟩ : ∃ (p : Fin 4000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = asArray (hiddenRows (V c main_v28) (V c main_arg0) (V c main_v30) (V c main_v32) (V c main_v35))
        (((cfg0.win 6).blk t).view.emb (ix2 p q))
  rw [hidden_emb, asArray_ix2]
  exact hidden_at V c t p q

/-- What point `t` writes back to the projected array is block `t` of the projected rows. -/
theorem projected_flushed (c : Dev nD) (t : Fin cfg0.N) :
    (dat0 (F := Ideal) V c).flushed 7 t = ((cfg0.win 7).blk t).view.read (Elt Ideal)
      (asArray (projectedRows (hiddenRows (V c main_v28) (V c main_arg0) (V c main_v30) (V c main_v32) (V c main_v35))
        (V c main_v34))) := by
  show (cfg0.win 7).cut (grid0.coords t) ((dat0 (F := Ideal) V c).after 7 t) = _
  rw [after0_7]
  unfold out0_7
  rw [View.canon_unit_zero hz]
  simp only [View.ld_unit_zero (S := S4000x64) hz, View.ld_unit_zero (S := S64x64) hz, View.ld_unit_zero (S := S1x64) hz,
    View.ld_unit_zero (S := S64x32) hz]
  funext j
  obtain ⟨p, q, rfl⟩ : ∃ (p : Fin 4000) (q : Fin 32), j = ix2 p q := ⟨j 0, j 1, eq_ix2 j⟩
  show k0_pay2 (F := Ideal) (iblk0 V c 0 t) (iblk0 V c 1 t) (iblk0 V c 2 t) (iblk0 V c 3 t) (iblk0 V c 4 t) (iblk0 V c 5 t) (ix2 p q)
    = asArray (projectedRows (hiddenRows (V c main_v28) (V c main_arg0) (V c main_v30) (V c main_v32) (V c main_v35))
        (V c main_v34)) (((cfg0.win 7).blk t).view.emb (ix2 p q))
  rw [projected_emb, asArray_ix2]
  exact projected_at V c t p q

/-! ## The blocks tile the rows -/

/-- An index of the hidden array is in point `t`'s block iff each coordinate is in the block's range on its axis. -/
theorem hidden_mem_blk (t : Fin cfg0.N) (i : S100000x64.Idx) :
    i ∈ ((cfg0.win 6).blk t).view.set ↔ ∀ a : Fin 2, win0_6.index t a * S4000x64.size a ≤ (i a).val
      ∧ (i a).val < win0_6.index t a * S4000x64.size a + S4000x64.size a := by
  show i ∈ ((View.whole main_v36_0).slice (win0_6.rect t)).set ↔ _
  rw [View.set_slice_whole, Rect.mem_set_unit]
  exact Iff.rfl

theorem projected_mem_blk (t : Fin cfg0.N) (i : S100000x32.Idx) :
    i ∈ ((cfg0.win 7).blk t).view.set ↔ ∀ a : Fin 2, win0_7.index t a * S4000x32.size a ≤ (i a).val
      ∧ (i a).val < win0_7.index t a * S4000x32.size a + S4000x32.size a := by
  show i ∈ ((View.whole main_v36_1).slice (win0_7.rect t)).set ↔ _
  rw [View.set_slice_whole, Rect.mem_set_unit]
  exact Iff.rfl

/-- Row `r` of the hidden array is in the block of point `r / 4000`. -/
theorem hidden_cover (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  have hN : cfg0.N = 25 := N_0
  refine ⟨⟨(i 0).val / 4000, by omega⟩, flush0_6 _, ?_⟩
  rw [hidden_mem_blk]
  obtain ⟨-, -, -, -, -, -, -, -, -, -, -, -, e0, e1, -⟩ := idx_facts0 ⟨(i 0).val / 4000, by omega⟩
  intro a
  match a with
  | ⟨0, _⟩ =>
    show win0_6.index ⟨(i 0).val / 4000, _⟩ (0 : Fin 2) * 4000 ≤ (i 0).val
      ∧ (i 0).val < win0_6.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, _⟩ (1 : Fin 2) * 64 ≤ (i 1).val
      ∧ (i 1).val < win0_6.index ⟨(i 0).val / 4000, _⟩ (1 : Fin 2) * 64 + 64
    rw [e1]; omega

theorem projected_cover (i : S100000x32.Idx) :
    ∃ t : Fin cfg0.N, (cfg0.win 7).flush t = true ∧ i ∈ ((cfg0.win 7).blk t).view.set := by
  have hi0 : (i 0).val < 100000 := idx2_lt0 i
  have hi1 : (i 1).val < 32 := idx2_lt1 i
  have hN : cfg0.N = 25 := N_0
  refine ⟨⟨(i 0).val / 4000, by omega⟩, flush0_7 _, ?_⟩
  rw [projected_mem_blk]
  obtain ⟨-, -, -, -, -, -, -, -, -, -, -, -, -, -, e0, e1⟩ := idx_facts0 ⟨(i 0).val / 4000, by omega⟩
  intro a
  match a with
  | ⟨0, _⟩ =>
    show win0_7.index ⟨(i 0).val / 4000, _⟩ (0 : Fin 2) * 4000 ≤ (i 0).val
      ∧ (i 0).val < win0_7.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, _⟩ (1 : Fin 2) * 32 ≤ (i 1).val
      ∧ (i 1).val < win0_7.index ⟨(i 0).val / 4000, _⟩ (1 : Fin 2) * 32 + 32
    rw [e1]; omega

/-! ## The two arrays after the layer -/

/-- THE HIDDEN ARRAY after the last write-back is the hidden rows of the arrays the layer was entered with. -/
theorem hidden_array (c : Dev nD) :
    (dat0 (F := Ideal) V c).arrAt 6 cfg0.N
      = asArray (hiddenRows (V c main_v28) (V c main_arg0) (V c main_v30) (V c main_v32) (V c main_v35)) :=
  (dat0 (F := Ideal) V c).arrAt_eq_of_cover 6 _ (fun t _ => hidden_flushed V c t) hidden_cover

/-- THE PROJECTED ARRAY after the last write-back is the projected rows. -/
theorem projected_array (c : Dev nD) :
    (dat0 (F := Ideal) V c).arrAt 7 cfg0.N
      = asArray (projectedRows (hiddenRows (V c main_v28) (V c main_arg0) (V c main_v30) (V c main_v32) (V c main_v35))
          (V c main_v34)) :=
  (dat0 (F := Ideal) V c).arrAt_eq_of_cover 7 _ (fun t _ => projected_flushed V c t) projected_cover

end Cert.KernelIdeal.Layers

end
-- ==== Proof.Dense2.lean ====
/-
  The second dense layer as one whole array.

  The layer runs over 25 grid points; point `t` reads rows `4000·t … 4000·t + 3999` of the aggregated projected rows
  and of the hidden array, the whole of the right weight matrix (already transposed, 64 by 32) and of the bias row,
  and writes back the same rows of the result. Entry `(n, o)` of the result is
  `(∑ d, hidden (n, d) · R (d, o) + aggregated (n, o)) + bias (0, o)`: a row of a block depends only on the same row of
  the inputs, and the 25 blocks tile the 100000 rows, so after the last write-back the array is that function everywhere.
-/
import proofs.«100433_j5497558139163_2_alg».proof.Proof.Gen.KernelIdeal.Frame
import proofs.«100433_j5497558139163_2_alg».proof.Proof.Payloads

set_option maxRecDepth 16384

noncomputable section

open scoped BigOperators

namespace Cert.KernelIdeal.Layers2

open Cert.KernelIdeal Cert.KernelIdeal.Gen Cert.KernelIdeal.Layers Idealize.ShloMosaic Idealize.ShloMosaic.TcCoe Idealize.ShloMosaic.ValueIdx
open Idealize.SL.Sem
open Idealize.ShloMosaic.Pipeline (Dat Cfg Window)

/-- A function of a row and a column as an array. -/
def asArray {a b : Nat} (f : Fin a → Fin b → EReal) : (⟨2, ![a, b]⟩ : Shape).Idx → EReal :=
  fun i => f ⟨(i 0).val, idx2_lt0 i⟩ ⟨(i 1).val, idx2_lt1 i⟩

theorem asArray_ix2 {a b : Nat} (f : Fin a → Fin b → EReal) (r : Fin a) (c : Fin b) : asArray f (ix2 r c) = f r c := rfl

/-- Entry `(n, o)` of the result, from the whole arrays the layer is entered with. -/
def resultRows (MT : S100000x32.Idx → EReal) (H : S100000x64.Idx → EReal) (R : S64x32.Idx → EReal) (b : S1x32.Idx → EReal)
    (n : Fin 100000) (o : Fin 32) : EReal :=
  (∑ d : Fin 64, H (ix2 n d) * R (ix2 d o) + MT (ix2 n o)) + b (ix2 (0 : Fin 1) o)

theorem hz : (![0, 0] : Fin 2 → Nat) = fun _ => 0 := funext fun a => by fin_cases a <;> rfl

/-- The printed index maps over the grid: a row-blocked window is at block `(t, 0)`, a whole-array window at `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The array row that row `p` of block `t` is. -/
def rowAt1 (t : Fin cfg1.N) (p : Fin 4000) : Fin 100000 :=
  ⟨4000 * t.val + p.val, by have := t.isLt; have := p.isLt; have h : cfg1.N = 25 := N_1; omega⟩

variable (V : (c : Dev nD) → (b : Ref sig .tc) → Buf (Elt Ideal) ((c : Thread nD τ).loc b))

/-! ## The input blocks read where the arrays hold them -/

theorem aggregated_block (c : Dev nD) (t : Fin cfg1.N) (p : Fin 4000) (q : Fin 32) :
    iblk1 V c 0 t (ix2 p q) = (V c main_v48 : S100000x32.Idx → EReal) (ix2 (rowAt1 t p) q) := by
  unfold iblk1
  show (V c main_v48 : S100000x32.Idx → EReal) (((cfg1.win 0).blk t).view.emb (ix2 p q)) = _
  refine congrArg _ (funext fun a => Fin.ext ?_)
  obtain ⟨e0, e1, -⟩ := idx_facts1 t
  match a with
  | ⟨0, _⟩ => show win1_0.index t (0 : Fin 2) * 4000 + 1 * p.val = 4000 * t.val + p.val; omega
  | ⟨1, _⟩ => show win1_0.index t (1 : Fin 2) * 32 + 1 * q.val = q.val; omega

theorem hidden_block1 (c : Dev nD) (t : Fin cfg1.N) (p : Fin 4000) (d : Fin 64) :
    iblk1 V c 1 t (ix2 p d) = (V c main_v36_0 : S100000x64.Idx → EReal) (ix2 (rowAt1 t p) d) := by
  unfold iblk1
  show (V c main_v36_0 : S100000x64.Idx → EReal) (((cfg1.win 1).blk t).view.emb (ix2 p d)) = _
  refine congrArg _ (funext fun a => Fin.ext ?_)
  obtain ⟨-, -, e0, e1, -⟩ := idx_facts1 t
  match a with
  | ⟨0, _⟩ => show win1_1.index t (0 : Fin 2) * 4000 + 1 * p.val = 4000 * t.val + p.val; omega
  | ⟨1, _⟩ => show win1_1.index t (1 : Fin 2) * 64 + 1 * d.val = d.val; omega

theorem weights_block (c : Dev nD) (t : Fin cfg1.N) (d : Fin 64) (q : Fin 32) :
    iblk1 V c 2 t (ix2 d q) = (V c main_v50 : S64x32.Idx → EReal) (ix2 d q) := by
  unfold iblk1
  show (V c main_v50 : S64x32.Idx → EReal) (((cfg1.win 2).blk t).view.emb (ix2 d q)) = _
  refine congrArg _ (funext fun a => Fin.ext ?_)
  obtain ⟨-, -, -, -, e0, e1, -⟩ := idx_facts1 t
  match a with
  | ⟨0, _⟩ => show win1_2.index t (0 : Fin 2) * 64 + 1 * d.val = d.val; omega
  | ⟨1, _⟩ => show win1_2.index t (1 : Fin 2) * 32 + 1 * q.val = q.val; omega

theorem bias_block1 (c : Dev nD) (t : Fin cfg1.N) (q : Fin 32) :
    iblk1 V c 3 t (ix2 (0 : Fin 1) q) = (V c main_v51 : S1x32.Idx → EReal) (ix2 (0 : Fin 1) q) := by
  unfold iblk1
  show (V c main_v51 : S1x32.Idx → EReal) (((cfg1.win 3).blk t).view.emb (ix2 (0 : Fin 1) q)) = _
  refine congrArg _ (funext fun a => Fin.ext ?_)
  obtain ⟨-, -, -, -, -, -, e0, e1, -⟩ := idx_facts1 t
  match a with
  | ⟨0, _⟩ => show win1_3.index t (0 : Fin 2) * 1 + 1 * 0 = 0; omega
  | ⟨1, _⟩ => show win1_3.index t (1 : Fin 2) * 32 + 1 * q.val = q.val; omega

/-- The result block of point `t` at `(p, q)` is the result array's entry at row `4000·t + p`. -/
theorem result_at (c : Dev nD) (t : Fin cfg1.N) (p : Fin 4000) (q : Fin 32) :
    k1_pay1 (F := Ideal) (iblk1 V c 1 t) (iblk1 V c 2 t) (iblk1 V c 0 t) (iblk1 V c 3 t) (ix2 p q)
      = resultRows (V c main_v48) (V c main_v36_0) (V c main_v50) (V c main_v51) (rowAt1 t p) q := by
  refine (output_block _ _ _ _ p q).trans ?_
  unfold resultRows
  rw [bias_block1, aggregated_block]
  refine congrArg (fun s => (s + (V c main_v48 : S100000x32.Idx → EReal) (ix2 (rowAt1 t p) q))
    + (V c main_v51 : S1x32.Idx → EReal) (ix2 (0 : Fin 1) q)) ?_
  refine Finset.sum_congr rfl fun d _ => ?_
  rw [hidden_block1, weights_block]

/-! ## What each point writes back -/

/-- Entry `(p, q)` of block `t` of the result sits at row `4000·t + p`. -/
theorem result_emb (t : Fin cfg1.N) (p : Fin 4000) (q : Fin 32) :
    ((cfg1.win 4).blk t).view.emb (ix2 p q) = (ix2 (rowAt1 t p) q : S100000x32.Idx) := by
  obtain ⟨-, -, -, -, -, -, -, -, e0, e1⟩ := idx_facts1 t
  funext a; apply Fin.ext
  match a with
  | ⟨0, _⟩ => show win1_4.index t (0 : Fin 2) * 4000 + 1 * p.val = 4000 * t.val + p.val; omega
  | ⟨1, _⟩ => show win1_4.index t (1 : Fin 2) * 32 + 1 * q.val = q.val; omega

/-- What point `t` writes back is block `t` of the result rows. -/
theorem result_flushed (c : Dev nD) (t : Fin cfg1.N) :
    (dat1 (F := Ideal) V c).flushed 4 t = ((cfg1.win 4).blk t).view.read (Elt Ideal)
      (asArray (resultRows (V c main_v48) (V c main_v36_0) (V c main_v50) (V c main_v51))) := by
  show (cfg1.win 4).cut (grid1.coords t) ((dat1 (F := Ideal) V c).after 4 t) = _
  rw [after1_4]
  unfold out1_4
  rw [View.canon_unit_zero hz]
  simp only [View.ld_unit_zero (S := S4000x64) hz, View.ld_unit_zero (S := S64x32) hz, View.ld_unit_zero (S := S4000x32) hz,
    View.ld_unit_zero (S := S1x32) hz]
  funext j
  obtain ⟨p, q, rfl⟩ : ∃ (p : Fin 4000) (q : Fin 32), j = ix2 p q := ⟨j 0, j 1, eq_ix2 j⟩
  show k1_pay1 (F := Ideal) (iblk1 V c 1 t) (iblk1 V c 2 t) (iblk1 V c 0 t) (iblk1 V c 3 t) (ix2 p q)
    = asArray (resultRows (V c main_v48) (V c main_v36_0) (V c main_v50) (V c main_v51))
        (((cfg1.win 4).blk t).view.emb (ix2 p q))
  rw [result_emb, asArray_ix2]
  exact result_at V c t p q

/-! ## The blocks tile the rows -/

theorem result_mem_blk (t : Fin cfg1.N) (i : S100000x32.Idx) :
    i ∈ ((cfg1.win 4).blk t).view.set ↔ ∀ a : Fin 2, win1_4.index t a * S4000x32.size a ≤ (i a).val
      ∧ (i a).val < win1_4.index t a * S4000x32.size a + S4000x32.size a := by
  show i ∈ ((View.whole main_v52).slice (win1_4.rect t)).set ↔ _
  rw [View.set_slice_whole, Rect.mem_set_unit]
  exact Iff.rfl

/-- Row `r` of the result is in the block of point `r / 4000`. -/
theorem result_cover (i : S100000x32.Idx) :
    ∃ t : Fin cfg1.N, (cfg1.win 4).flush t = true ∧ i ∈ ((cfg1.win 4).blk t).view.set := by
  have hi0 : (i 0).val < 100000 := idx2_lt0 i
  have hi1 : (i 1).val < 32 := idx2_lt1 i
  have hN : cfg1.N = 25 := N_1
  refine ⟨⟨(i 0).val / 4000, by omega⟩, flush1_4 _, ?_⟩
  rw [result_mem_blk]
  obtain ⟨-, -, -, -, -, -, -, -, e0, e1⟩ := idx_facts1 ⟨(i 0).val / 4000, by omega⟩
  intro a
  match a with
  | ⟨0, _⟩ =>
    show win1_4.index ⟨(i 0).val / 4000, _⟩ (0 : Fin 2) * 4000 ≤ (i 0).val
      ∧ (i 0).val < win1_4.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win1_4.index ⟨(i 0).val / 4000, _⟩ (1 : Fin 2) * 32 ≤ (i 1).val
      ∧ (i 1).val < win1_4.index ⟨(i 0).val / 4000, _⟩ (1 : Fin 2) * 32 + 32
    rw [e1]; omega

/-- THE RESULT ARRAY after the last write-back is the result rows of the arrays the layer was entered with. -/
theorem result_array (c : Dev nD) :
    (dat1 (F := Ideal) V c).arrAt 4 cfg1.N
      = asArray (resultRows (V c main_v48) (V c main_v36_0) (V c main_v50) (V c main_v51)) :=
  (dat1 (F := Ideal) V c).arrAt_eq_of_cover 4 _ (fun t _ => result_flushed V c t) result_cover

end Cert.KernelIdeal.Layers2

end
-- ==== Proof.LibGatherRowsFlat.lean ====
/-
  `stablehlo.gather` of whole rows of a table by one row index per result row, read at an index.

  What `table[idx]` on the leading axis of a table lowers to: every result row `e` is the table's row at the start
  index `idx[e, 0]`, read as a signed integer and clamped into `[0, N − 1]`. Two layouts of the same read are given:
  a table `[N, D]` gathered into `[E, D]`, and a table `[N, 1, D]` gathered into `[E, 1, D]`. The row index term is
  literally the same in both, so the two layouts can be equated through it.
-/
import Idealize.ShloMosaic.Lib.ValueIdx
import Idealize.ShloMosaic.PureOps.Ideal

noncomputable section

namespace SageLib

open Idealize.ShloMosaic Idealize.ShloMosaic.ValueIdx

/-! ## Rows of a rank-2 table -/

/-- The dimension numbers of a row gather from a table `[N, D]` by start indices `[E, 1]` into a result `[E, D]`:
    the row axis is collapsed and indexed, the column axis is the one offset axis, kept whole. -/
abbrev rowGatherDims2 (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index that result row `e` of the rank-2 row gather reads its one start component at is `[e, 0]`. -/
theorem rowGatherDims2_siIdx {N E D : Nat}
    (wf : GatherDims.WF ⟨2, ![N, D]⟩ ⟨2, ![E, 1]⟩ ⟨2, ![E, D]⟩ [1] [0] [] [0] [] 1 ![1, D])
    (e : Fin E) (c : Fin D) (k : Fin (rowGatherDims2 N E D wf).startIndexMap.length) :
    (rowGatherDims2 N E D wf).siIdx (ix2 e c) k = ix2 e (0 : Fin 1) := by
  funext b; refine Fin.ext ?_
  match b with
  | ⟨0, _⟩ => rfl
  | ⟨1, _⟩ =>
    have hk : k.val < 1 := k.isLt
    show k.val = 0
    omega

/-- THE RANK-2 ROW GATHER READ AT `(e, c)`: the table at row `idx[e, 0]` (read signed, clamped into `[0, N − 1]`)
    and column `c`. -/
theorem gather_rows2 {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims2 N E D wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowGatherDims2 N E D wf).start (ix2 e c) idx 0 + (rowGatherDims2 N E D wf).batchCoord (ix2 e c) 0
      + (rowGatherDims2 N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims2 N E D wf).startIndexMap from List.mem_singleton.mpr rfl)]
    rw [rowGatherDims2_siIdx]
    rfl
  | ⟨1, _⟩ =>
    show (rowGatherDims2 N E D wf).start (ix2 e c) idx 1 + (rowGatherDims2 N E D wf).batchCoord (ix2 e c) 1
      + (rowGatherDims2 N E D wf).offCoord (ix2 e c) 1 = c.val
    rw [GatherDims.batchCoord_eq_zero _ _ _ List.not_mem_nil]
    have hs : (rowGatherDims2 N E D wf).start (ix2 e c) idx 1 = 0 := by
      unfold GatherDims.start
      rw [dif_neg (show (1 : Fin 2) ∉ ([0] : List (Fin 2)) by decide)]
    have hk : (1 : Fin 2) ∈ (rowGatherDims2 N E D wf).sKept :=
      (GatherDims.mem_sKept _ _).mpr ⟨(show (1 : Fin 2) ∉ ([0] : List (Fin 2)) by decide), List.not_mem_nil⟩
    have ho : (rowGatherDims2 N E D wf).offCoord (ix2 e c) 1 = c.val := by
      unfold GatherDims.offCoord
      rw [dif_pos hk]
      rfl
    rw [hs, ho]
    omega

/-! ## Rows of a rank-3 table with a unit middle axis -/

/-- The dimension numbers of a row gather from a table `[N, 1, D]` by start indices `[E, 1]` into a result
    `[E, 1, D]`: the row axis is collapsed and indexed, the other two axes are the offset axes, kept whole. -/
abbrev rowGatherDims3 (N E D : Nat)
    (wf : GatherDims.WF ⟨3, ![N, 1, D]⟩ ⟨2, ![E, 1]⟩ ⟨3, ![E, 1, D]⟩ [1, 2] [0] [] [0] [] 1 ![1, 1, D]) :
    GatherDims ⟨3, ![N, 1, D]⟩ ⟨2, ![E, 1]⟩ ⟨3, ![E, 1, D]⟩ where
  offsetDims := [1, 2]
  collapsedSliceDims := [0]
  operandBatchingDims := []
  startIndicesBatchingDims := []
  startIndexMap := [0]
  indexVectorDim := 1
  sliceSizes := ![1, 1, D]
  wf := wf

/-- The start-indices index that result row `e` of the rank-3 row gather reads its one start component at is `[e, 0]`. -/
theorem rowGatherDims3_siIdx {N E D : Nat}
    (wf : GatherDims.WF ⟨3, ![N, 1, D]⟩ ⟨2, ![E, 1]⟩ ⟨3, ![E, 1, D]⟩ [1, 2] [0] [] [0] [] 1 ![1, 1, D])
    (e : Fin E) (m : Fin 1) (c : Fin D) (k : Fin (rowGatherDims3 N E D wf).startIndexMap.length) :
    (rowGatherDims3 N E D wf).siIdx (ix3 e m c) k = ix2 e (0 : Fin 1) := by
  funext b; refine Fin.ext ?_
  match b with
  | ⟨0, _⟩ => rfl
  | ⟨1, _⟩ =>
    have hk : k.val < 1 := k.isLt
    show k.val = 0
    omega

/-- THE RANK-3 ROW GATHER READ AT `(e, 0, c)`: the table at row `idx[e, 0]` (read signed, clamped into
    `[0, N − 1]`), middle coordinate `0` and column `c`. -/
theorem gather_rows3 {α : Type} {N E D w : Nat} (hN : 0 < N)
    (wf : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (idx : IVec ⟨2, ![E, 1]⟩ w) (e : Fin E) (c : Fin D) :
    Host.gather (rowGatherDims3 N E D wf) x idx (ix3 e (0 : Fin 1) c)
      = x (ix3 ⟨min (idx (ix2 e (0 : Fin 1))).toInt.toNat (N - 1), by omega⟩ (0 : Fin 1) c) := by
  unfold Host.gather
  congr 1
  funext a
  refine Fin.ext ?_
  match a with
  | ⟨0, _⟩ =>
    show (rowGatherDims3 N E D wf).start (ix3 e (0 : Fin 1) c) idx 0
      + (rowGatherDims3 N E D wf).batchCoord (ix3 e (0 : Fin 1) c) 0
      + (rowGatherDims3 N E D wf).offCoord (ix3 e (0 : Fin 1) c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGatherDims3 N E D wf).startIndexMap from List.mem_singleton.mpr rfl)]
    rw [rowGatherDims3_siIdx]
    rfl
  | ⟨1, _⟩ =>
    show (rowGatherDims3 N E D wf).start (ix3 e (0 : Fin 1) c) idx 1
      + (rowGatherDims3 N E D wf).batchCoord (ix3 e (0 : Fin 1) c) 1
      + (rowGatherDims3 N E D wf).offCoord (ix3 e (0 : Fin 1) c) 1 = 0
    rw [GatherDims.batchCoord_eq_zero _ _ _ List.not_mem_nil]
    have hs : (rowGatherDims3 N E D wf).start (ix3 e (0 : Fin 1) c) idx 1 = 0 := by
      unfold GatherDims.start
      rw [dif_neg (show (1 : Fin 3) ∉ ([0] : List (Fin 3)) by decide)]
    have hk : (1 : Fin 3) ∈ (rowGatherDims3 N E D wf).sKept :=
      (GatherDims.mem_sKept _ _).mpr ⟨(show (1 : Fin 3) ∉ ([0] : List (Fin 3)) by decide), List.not_mem_nil⟩
    have ho : (rowGatherDims3 N E D wf).offCoord (ix3 e (0 : Fin 1) c) 1 = 0 := by
      unfold GatherDims.offCoord
      rw [dif_pos hk]
      rfl
    rw [hs, ho]
  | ⟨2, _⟩ =>
    show (rowGatherDims3 N E D wf).start (ix3 e (0 : Fin 1) c) idx 2
      + (rowGatherDims3 N E D wf).batchCoord (ix3 e (0 : Fin 1) c) 2
      + (rowGatherDims3 N E D wf).offCoord (ix3 e (0 : Fin 1) c) 2 = c.val
    rw [GatherDims.batchCoord_eq_zero _ _ _ List.not_mem_nil]
    have hs : (rowGatherDims3 N E D wf).start (ix3 e (0 : Fin 1) c) idx 2 = 0 := by
      unfold GatherDims.start
      rw [dif_neg (show (2 : Fin 3) ∉ ([0] : List (Fin 3)) by decide)]
    have hk : (2 : Fin 3) ∈ (rowGatherDims3 N E D wf).sKept :=
      (GatherDims.mem_sKept _ _).mpr ⟨(show (2 : Fin 3) ∉ ([0] : List (Fin 3)) by decide), List.not_mem_nil⟩
    have ho : (rowGatherDims3 N E D wf).offCoord (ix3 e (0 : Fin 1) c) 2 = c.val := by
      unfold GatherDims.offCoord
      rw [dif_pos hk]
      rfl
    rw [hs, ho]
    omega

end SageLib

end
-- ==== Proof.LibScatterRows.lean ====
/-
  Scattering whole rows with an add body, read at one element.

  A scatter-add whose every update row carries one row index (the segment sum of rows) gives, at
  element (n, o) of the operand, the operand's element plus the sum over the update rows e whose
  index word, read as a signed integer, equals n, of element o of row e. An update row whose index
  is negative or at least the number of operand rows lands outside the operand and contributes
  nothing. Two layouts of the same statement: operand [N, D] with updates [E, D], and operand
  [N, 1, D] with updates [E, 1, D]; the indices are [E, 1] in both.
-/
import Idealize.ShloMosaic.Lib.ValueIdx
import Idealize.ShloMosaic.PureOps.Ideal

noncomputable section

open scoped BigOperators

namespace SageLib

open Idealize.ShloMosaic Idealize.ShloMosaic.ValueIdx

/-! ## Operand [N, D], indices [E, 1], updates [E, D] -/

/-- The dimension numbers of a row scatter into an operand [N, D]: update window axis 1, inserted
    window axis 0, the one index component addressing operand axis 0, index vectors along axis 1. -/
abbrev rowScatterDims2 (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows2
variable {N E D w : Nat} (wf : ScatterDims.WF ⟨2, ![N, D]⟩ ⟨2, ![E, 1]⟩ ⟨2, ![E, D]⟩ [1] [0] [0] 1)

/-- On operand axis 0 the window of update element (e, o') starts at the index word of row e, read signed. -/
theorem rows2_start0 (e : Fin E) (o' : Fin D) (idx : IVec ⟨2, ![E, 1]⟩ w) :
    (rowScatterDims2 N E D wf).start (ix2 e o') idx 0 = (idx (ix2 e (0 : Fin 1))).toInt := by
  unfold ScatterDims.start
  rw [dif_pos (show (0 : Fin 2) ∈ (rowScatterDims2 N E D wf).scatterDimsToOperandDims from List.mem_singleton.mpr rfl)]
  have hsi : (rowScatterDims2 N E D wf).siIdx (ix2 e o')
      ⟨List.idxOf (0 : Fin 2) (rowScatterDims2 N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1 the window starts at 0. -/
theorem rows2_start1 (j : (⟨2, ![E, D]⟩ : Shape).Idx) (idx : IVec ⟨2, ![E, 1]⟩ w) :
    (rowScatterDims2 N E D wf).start j idx 1 = 0 := by
  unfold ScatterDims.start
  rw [dif_neg (show ¬ (1 : Fin 2) ∈ (rowScatterDims2 N E D wf).scatterDimsToOperandDims from
    fun h => absurd (List.mem_singleton.1 h) (show ¬ (1 : Fin 2) = 0 by decide))]

/-- The operand's axes that are not inserted: axis 1 alone. -/
theorem rows2_sKept : (rowScatterDims2 N E D wf).sKept = [1] := rfl

/-- On operand axis 0, the inserted one, the window coordinate is 0. -/
theorem rows2_window0 (j : (⟨2, ![E, D]⟩ : Shape).Idx) :
    (rowScatterDims2 N E D wf).window j 0 = 0 := by
  unfold ScatterDims.window
  rw [dif_neg (show ¬ (0 : Fin 2) ∈ (rowScatterDims2 N E D wf).sKept from
    fun h => absurd (List.mem_singleton.1 ((rows2_sKept wf) ▸ h)) (show ¬ (0 : Fin 2) = 1 by decide))]

/-- On operand axis 1 the window coordinate of update element (e, o') is o'. -/
theorem rows2_window1 (e : Fin E) (o' : Fin D) :
    (rowScatterDims2 N E D wf).window (ix2 e o') 1 = o'.val := by
  unfold ScatterDims.window
  rw [dif_pos (show (1 : Fin 2) ∈ (rowScatterDims2 N E D wf).sKept from (rows2_sKept wf) ▸ List.mem_singleton.2 rfl)]
  rfl

/-- Update element (e, o') lands on operand element (n, o) exactly when the index word of row e, read
    signed, is n and o' = o. -/
theorem rows2_resultIdx_iff (e : Fin E) (o' : Fin D) (idx : IVec ⟨2, ![E, 1]⟩ w) (n : Fin N) (o : Fin D) :
    (rowScatterDims2 N E D wf).resultIdx? (ix2 e o') idx = some (ix2 n o)
      ↔ (idx (ix2 e (0 : Fin 1))).toInt = (n.val : Int) ∧ o' = o := by
  have h0 : (rowScatterDims2 N E D wf).start (ix2 e o') idx 0 + ((rowScatterDims2 N E D wf).window (ix2 e o') 0 : Int)
      = (idx (ix2 e (0 : Fin 1))).toInt := by
    rw [rows2_start0, rows2_window0]; simp
  have h1 : (rowScatterDims2 N E D wf).start (ix2 e o') idx 1 + ((rowScatterDims2 N E D wf).window (ix2 e o') 1 : Int)
      = (o'.val : Int) := by
    rw [rows2_start1, rows2_window1]; simp
  unfold ScatterDims.resultIdx?
  constructor
  · intro h
    split at h
    · rename_i hin
      have hf := Option.some.inj h
      have e0 := congrArg (fun f => (f 0).val) hf
      have e1 := congrArg (fun f => (f 1).val) hf
      simp only at e0 e1
      have hin0 := hin 0
      rw [h0] at e0 hin0
      rw [h1] at e1
      refine ⟨?_, Fin.ext ?_⟩
      · have : ((idx (ix2 e (0 : Fin 1))).toInt.toNat : Int) = (n.val : Int) := by exact_mod_cast e0
        omega
      · have : ((o'.val : Int).toNat) = o.val := e1
        omega
    · exact absurd h (by simp)
  · rintro ⟨hn, rfl⟩
    have hin : ∀ a, 0 ≤ (rowScatterDims2 N E D wf).start (ix2 e o') idx a + (rowScatterDims2 N E D wf).window (ix2 e o') a ∧
        (rowScatterDims2 N E D wf).start (ix2 e o') idx a + (rowScatterDims2 N E D wf).window (ix2 e o') a
          < (⟨2, ![N, D]⟩ : Shape).size a := by
      intro a
      match a with
      | ⟨0, _⟩ =>
        show 0 ≤ (rowScatterDims2 N E D wf).start (ix2 e o') idx 0 + ((rowScatterDims2 N E D wf).window (ix2 e o') 0 : Int) ∧
          (rowScatterDims2 N E D wf).start (ix2 e o') idx 0 + ((rowScatterDims2 N E D wf).window (ix2 e o') 0 : Int) < ((N : Nat) : Int)
        have := n.isLt
        rw [h0, hn]; omega
      | ⟨1, _⟩ =>
        show 0 ≤ (rowScatterDims2 N E D wf).start (ix2 e o') idx 1 + ((rowScatterDims2 N E D wf).window (ix2 e o') 1 : Int) ∧
          (rowScatterDims2 N E D wf).start (ix2 e o') idx 1 + ((rowScatterDims2 N E D wf).window (ix2 e o') 1 : Int) < ((D : Nat) : Int)
        have := o'.isLt
        rw [h1]; omega
    rw [dif_pos hin]
    congr 1
    funext a
    refine Fin.ext ?_
    match a with
    | ⟨0, _⟩ =>
      show ((rowScatterDims2 N E D wf).start (ix2 e o') idx 0 + ((rowScatterDims2 N E D wf).window (ix2 e o') 0 : Int)).toNat = n.val
      rw [h0, hn]; simp
    | ⟨1, _⟩ =>
      show ((rowScatterDims2 N E D wf).start (ix2 e o') idx 1 + ((rowScatterDims2 N E D wf).window (ix2 e o') 1 : Int)).toNat = o'.val
      rw [h1]; simp

/-- SCATTER-ADD OF ROWS READ AT (n, o), operand [N, D]: the operand's element plus the sum, over the update rows
    e whose index word read signed is n, of element o of row e. -/
theorem scatterAdd_rows2 (x : (⟨2, ![N, D]⟩ : Shape).Idx → EReal) (idx : IVec ⟨2, ![E, 1]⟩ w)
    (upd : (⟨2, ![E, D]⟩ : Shape).Idx → EReal) (n : Fin N) (o : Fin D) :
    Ideal.hostScatterAdd (rowScatterDims2 N E D wf) x idx upd (ix2 n o)
      = x (ix2 n o) + ∑ e ∈ Finset.univ.filter (fun e : Fin E => (idx (ix2 e (0 : Fin 1))).toInt = (n.val : Int)),
          upd (ix2 e o) := by
  unfold Ideal.hostScatterAdd
  congr 1
  refine Finset.sum_nbij' (fun j : (⟨2, ![E, D]⟩ : Shape).Idx => (⟨(j 0).val, idx2_lt0 j⟩ : Fin E))
    (fun e : Fin E => (ix2 e o : (⟨2, ![E, D]⟩ : Shape).Idx)) ?_ ?_ ?_ ?_ ?_
  · intro j hj
    obtain ⟨a, b, rfl⟩ : ∃ (a : Fin E) (b : Fin D), j = ix2 a b := ⟨j 0, j 1, eq_ix2 j⟩
    exact Finset.mem_filter.2 ⟨Finset.mem_univ _,
      ((rows2_resultIdx_iff wf a b idx n o).1 (Finset.mem_filter.1 hj).2).1⟩
  · intro e he
    exact Finset.mem_filter.2 ⟨Finset.mem_univ _,
      (rows2_resultIdx_iff wf e o idx n o).2 ⟨(Finset.mem_filter.1 he).2, rfl⟩⟩
  · intro j hj
    obtain ⟨a, b, rfl⟩ : ∃ (a : Fin E) (b : Fin D), j = ix2 a b := ⟨j 0, j 1, eq_ix2 j⟩
    obtain ⟨_, rfl⟩ := (rows2_resultIdx_iff wf a b idx n o).1 (Finset.mem_filter.1 hj).2
    rfl
  · intro e _
    rfl
  · intro j hj
    obtain ⟨a, b, rfl⟩ : ∃ (a : Fin E) (b : Fin D), j = ix2 a b := ⟨j 0, j 1, eq_ix2 j⟩
    obtain ⟨_, rfl⟩ := (rows2_resultIdx_iff wf a b idx n o).1 (Finset.mem_filter.1 hj).2
    rfl

end Rows2

/-! ## Operand [N, 1, D], indices [E, 1], updates [E, 1, D] -/

/-- The dimension numbers of a row scatter into an operand [N, 1, D]: update window axes 1 and 2, inserted
    window axis 0, the one index component addressing operand axis 0, index vectors along axis 1. -/
abbrev rowScatterDims3 (N E D : Nat)
    (wf : ScatterDims.WF ⟨3, ![N, 1, D]⟩ ⟨2, ![E, 1]⟩ ⟨3, ![E, 1, D]⟩ [1, 2] [0] [0] 1) :
    ScatterDims ⟨3, ![N, 1, D]⟩ ⟨2, ![E, 1]⟩ ⟨3, ![E, 1, D]⟩ where
  updateWindowDims := [1, 2]
  insertedWindowDims := [0]
  scatterDimsToOperandDims := [0]
  indexVectorDim := 1
  wf := wf

section Rows3
variable {N E D w : Nat} (wf : ScatterDims.WF ⟨3, ![N, 1, D]⟩ ⟨2, ![E, 1]⟩ ⟨3, ![E, 1, D]⟩ [1, 2] [0] [0] 1)

/-- On operand axis 0 the window of update element (e, m, o') starts at the index word of row e, read signed. -/
theorem rows3_start0 (e : Fin E) (m : Fin 1) (o' : Fin D) (idx : IVec ⟨2, ![E, 1]⟩ w) :
    (rowScatterDims3 N E D wf).start (ix3 e m o') idx 0 = (idx (ix2 e (0 : Fin 1))).toInt := by
  unfold ScatterDims.start
  rw [dif_pos (show (0 : Fin 3) ∈ (rowScatterDims3 N E D wf).scatterDimsToOperandDims from List.mem_singleton.mpr rfl)]
  have hsi : (rowScatterDims3 N E D wf).siIdx (ix3 e m o')
      ⟨List.idxOf (0 : Fin 3) (rowScatterDims3 N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1 the window starts at 0. -/
theorem rows3_start1 (j : (⟨3, ![E, 1, D]⟩ : Shape).Idx) (idx : IVec ⟨2, ![E, 1]⟩ w) :
    (rowScatterDims3 N E D wf).start j idx 1 = 0 := by
  unfold ScatterDims.start
  rw [dif_neg (show ¬ (1 : Fin 3) ∈ (rowScatterDims3 N E D wf).scatterDimsToOperandDims from
    fun h => absurd (List.mem_singleton.1 h) (show ¬ (1 : Fin 3) = 0 by decide))]

/-- On operand axis 2 the window starts at 0. -/
theorem rows3_start2 (j : (⟨3, ![E, 1, D]⟩ : Shape).Idx) (idx : IVec ⟨2, ![E, 1]⟩ w) :
    (rowScatterDims3 N E D wf).start j idx 2 = 0 := by
  unfold ScatterDims.start
  rw [dif_neg (show ¬ (2 : Fin 3) ∈ (rowScatterDims3 N E D wf).scatterDimsToOperandDims from
    fun h => absurd (List.mem_singleton.1 h) (show ¬ (2 : Fin 3) = 0 by decide))]

/-- On operand axis 0, the inserted one, the window coordinate is 0. -/
theorem rows3_window0 (j : (⟨3, ![E, 1, D]⟩ : Shape).Idx) :
    (rowScatterDims3 N E D wf).window j 0 = 0 := by
  unfold ScatterDims.window
  rw [dif_neg (show ¬ (0 : Fin 3) ∈ (rowScatterDims3 N E D wf).sKept from
    (show ¬ (0 : Fin 3) ∈ ([1, 2] : List (Fin 3)) by decide))]

/-- On operand axis 1 the window coordinate of update element (e, m, o') is m. -/
theorem rows3_window1 (e : Fin E) (m : Fin 1) (o' : Fin D) :
    (rowScatterDims3 N E D wf).window (ix3 e m o') 1 = m.val := by
  unfold ScatterDims.window
  rw [dif_pos (show (1 : Fin 3) ∈ (rowScatterDims3 N E D wf).sKept from
    (show (1 : Fin 3) ∈ ([1, 2] : List (Fin 3)) by decide))]
  rfl

/-- On operand axis 2 the window coordinate of update element (e, m, o') is o'. -/
theorem rows3_window2 (e : Fin E) (m : Fin 1) (o' : Fin D) :
    (rowScatterDims3 N E D wf).window (ix3 e m o') 2 = o'.val := by
  unfold ScatterDims.window
  rw [dif_pos (show (2 : Fin 3) ∈ (rowScatterDims3 N E D wf).sKept from
    (show (2 : Fin 3) ∈ ([1, 2] : List (Fin 3)) by decide))]
  rfl

/-- Update element (e, 0, o') lands on operand element (n, 0, o) exactly when the index word of row e, read
    signed, is n and o' = o. -/
theorem rows3_resultIdx_iff (e : Fin E) (o' : Fin D) (idx : IVec ⟨2, ![E, 1]⟩ w) (n : Fin N) (o : Fin D) :
    (rowScatterDims3 N E D wf).resultIdx? (ix3 e (0 : Fin 1) o') idx = some (ix3 n (0 : Fin 1) o)
      ↔ (idx (ix2 e (0 : Fin 1))).toInt = (n.val : Int) ∧ o' = o := by
  have h0 : (rowScatterDims3 N E D wf).start (ix3 e (0 : Fin 1) o') idx 0 + ((rowScatterDims3 N E D wf).window (ix3 e (0 : Fin 1) o') 0 : Int)
      = (idx (ix2 e (0 : Fin 1))).toInt := by
    rw [rows3_start0, rows3_window0]; simp
  have h1 : (rowScatterDims3 N E D wf).start (ix3 e (0 : Fin 1) o') idx 1 + ((rowScatterDims3 N E D wf).window (ix3 e (0 : Fin 1) o') 1 : Int) = 0 := by
    rw [rows3_start1, rows3_window1]; simp
  have h2 : (rowScatterDims3 N E D wf).start (ix3 e (0 : Fin 1) o') idx 2 + ((rowScatterDims3 N E D wf).window (ix3 e (0 : Fin 1) o') 2 : Int)
      = (o'.val : Int) := by
    rw [rows3_start2, rows3_window2]; simp
  unfold ScatterDims.resultIdx?
  constructor
  · intro h
    split at h
    · rename_i hin
      have hf := Option.some.inj h
      have e0 := congrArg (fun f => (f 0).val) hf
      have e2 := congrArg (fun f => (f 2).val) hf
      simp only at e0 e2
      have hin0 := hin 0
      rw [h0] at e0 hin0
      rw [h2] at e2
      refine ⟨?_, Fin.ext ?_⟩
      · have : ((idx (ix2 e (0 : Fin 1))).toInt.toNat : Int) = (n.val : Int) := by exact_mod_cast e0
        omega
      · have : ((o'.val : Int).toNat) = o.val := e2
        omega
    · exact absurd h (by simp)
  · rintro ⟨hn, rfl⟩
    have hin : ∀ a, 0 ≤ (rowScatterDims3 N E D wf).start (ix3 e (0 : Fin 1) o') idx a + (rowScatterDims3 N E D wf).window (ix3 e (0 : Fin 1) o') a ∧
        (rowScatterDims3 N E D wf).start (ix3 e (0 : Fin 1) o') idx a + (rowScatterDims3 N E D wf).window (ix3 e (0 : Fin 1) o') a
          < (⟨3, ![N, 1, D]⟩ : Shape).size a := by
      intro a
      match a with
      | ⟨0, _⟩ =>
        show 0 ≤ (rowScatterDims3 N E D wf).start (ix3 e (0 : Fin 1) o') idx 0 + ((rowScatterDims3 N E D wf).window (ix3 e (0 : Fin 1) o') 0 : Int) ∧
          (rowScatterDims3 N E D wf).start (ix3 e (0 : Fin 1) o') idx 0 + ((rowScatterDims3 N E D wf).window (ix3 e (0 : Fin 1) o') 0 : Int) < ((N : Nat) : Int)
        have := n.isLt
        rw [h0, hn]; omega
      | ⟨1, _⟩ =>
        show 0 ≤ (rowScatterDims3 N E D wf).start (ix3 e (0 : Fin 1) o') idx 1 + ((rowScatterDims3 N E D wf).window (ix3 e (0 : Fin 1) o') 1 : Int) ∧
          (rowScatterDims3 N E D wf).start (ix3 e (0 : Fin 1) o') idx 1 + ((rowScatterDims3 N E D wf).window (ix3 e (0 : Fin 1) o') 1 : Int) < ((1 : Nat) : Int)
        rw [h1]; omega
      | ⟨2, _⟩ =>
        show 0 ≤ (rowScatterDims3 N E D wf).start (ix3 e (0 : Fin 1) o') idx 2 + ((rowScatterDims3 N E D wf).window (ix3 e (0 : Fin 1) o') 2 : Int) ∧
          (rowScatterDims3 N E D wf).start (ix3 e (0 : Fin 1) o') idx 2 + ((rowScatterDims3 N E D wf).window (ix3 e (0 : Fin 1) o') 2 : Int) < ((D : Nat) : Int)
        have := o'.isLt
        rw [h2]; omega
    rw [dif_pos hin]
    congr 1
    funext a
    refine Fin.ext ?_
    match a with
    | ⟨0, _⟩ =>
      show ((rowScatterDims3 N E D wf).start (ix3 e (0 : Fin 1) o') idx 0 + ((rowScatterDims3 N E D wf).window (ix3 e (0 : Fin 1) o') 0 : Int)).toNat = n.val
      rw [h0, hn]; simp
    | ⟨1, _⟩ =>
      show ((rowScatterDims3 N E D wf).start (ix3 e (0 : Fin 1) o') idx 1 + ((rowScatterDims3 N E D wf).window (ix3 e (0 : Fin 1) o') 1 : Int)).toNat = 0
      rw [h1]; simp
    | ⟨2, _⟩ =>
      show ((rowScatterDims3 N E D wf).start (ix3 e (0 : Fin 1) o') idx 2 + ((rowScatterDims3 N E D wf).window (ix3 e (0 : Fin 1) o') 2 : Int)).toNat = o'.val
      rw [h2]; simp

/-- SCATTER-ADD OF ROWS READ AT (n, 0, o), operand [N, 1, D]: the operand's element plus the sum, over the update
    rows e whose index word read signed is n, of element (0, o) of row e. -/
theorem scatterAdd_rows3 (x : (⟨3, ![N, 1, D]⟩ : Shape).Idx → EReal) (idx : IVec ⟨2, ![E, 1]⟩ w)
    (upd : (⟨3, ![E, 1, D]⟩ : Shape).Idx → EReal) (n : Fin N) (o : Fin D) :
    Ideal.hostScatterAdd (rowScatterDims3 N E D wf) x idx upd (ix3 n (0 : Fin 1) o)
      = x (ix3 n (0 : Fin 1) o) + ∑ e ∈ Finset.univ.filter (fun e : Fin E => (idx (ix2 e (0 : Fin 1))).toInt = (n.val : Int)),
          upd (ix3 e (0 : Fin 1) o) := by
  unfold Ideal.hostScatterAdd
  congr 1
  refine Finset.sum_nbij' (fun j : (⟨3, ![E, 1, D]⟩ : Shape).Idx => (⟨(j 0).val, (j 0).isLt⟩ : Fin E))
    (fun e : Fin E => (ix3 e (0 : Fin 1) o : (⟨3, ![E, 1, D]⟩ : Shape).Idx)) ?_ ?_ ?_ ?_ ?_
  · intro j hj
    obtain ⟨a, m, b, rfl⟩ : ∃ (a : Fin E) (m : Fin 1) (b : Fin D), j = ix3 a m b := ⟨j 0, j 1, j 2, eq_ix3 j⟩
    obtain rfl : m = 0 := Subsingleton.elim _ _
    exact Finset.mem_filter.2 ⟨Finset.mem_univ _,
      ((rows3_resultIdx_iff wf a b idx n o).1 (Finset.mem_filter.1 hj).2).1⟩
  · intro e he
    exact Finset.mem_filter.2 ⟨Finset.mem_univ _,
      (rows3_resultIdx_iff wf e o idx n o).2 ⟨(Finset.mem_filter.1 he).2, rfl⟩⟩
  · intro j hj
    obtain ⟨a, m, b, rfl⟩ : ∃ (a : Fin E) (m : Fin 1) (b : Fin D), j = ix3 a m b := ⟨j 0, j 1, j 2, eq_ix3 j⟩
    obtain rfl : m = 0 := Subsingleton.elim _ _
    obtain ⟨_, rfl⟩ := (rows3_resultIdx_iff wf a b idx n o).1 (Finset.mem_filter.1 hj).2
    rfl
  · intro e _
    rfl
  · intro j hj
    obtain ⟨a, m, b, rfl⟩ : ∃ (a : Fin E) (m : Fin 1) (b : Fin D), j = ix3 a m b := ⟨j 0, j 1, j 2, eq_ix3 j⟩
    obtain rfl : m = 0 := Subsingleton.elim _ _
    obtain ⟨_, rfl⟩ := (rows3_resultIdx_iff wf a b idx n o).1 (Finset.mem_filter.1 hj).2
    rfl

end Rows3

end SageLib

end
-- ==== Proof.LibScatterVec.lean ====
/-
  Scattering scalars into a vector with an add body, read at one element.

  A scatter-add whose every update is one number carrying one position (the segment sum of numbers: counting or
  summing per segment) gives, at element n of the operand vector, the operand's element plus the sum, over the
  updates e whose index word, read as a signed integer, equals n, of update e. An update whose index is negative
  or at least the length of the operand lands outside the operand and contributes nothing. The operand is [N], the
  indices are [E, 1] and the updates are [E]: there is no window axis, the operand's only axis is the inserted one,
  and the one index component addresses it.

  The argument: on the operand's axis the window of update e starts at the index word of row e and its window
  coordinate is 0, so update e lands on element n exactly when that word read signed is n; the sum over the
  updates that land on n is then re-indexed along the bijection between rank-1 indices and their coordinate.
-/
import Idealize.ShloMosaic.Lib.ValueIdx
import Idealize.ShloMosaic.PureOps.Ideal

noncomputable section

open scoped BigOperators

namespace SageLib

open Idealize.ShloMosaic Idealize.ShloMosaic.ValueIdx

/-- The dimension numbers of a scalar scatter into a vector [N]: no update window axis, inserted window axis 0,
    the one index component addressing operand axis 0, index vectors along axis 1. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- On the operand's axis the window of update e starts at the index word of row e, read signed. -/
theorem vec_start0 (e : Fin E) (idx : IVec ⟨2, ![E, 1]⟩ w) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's axes that are not inserted: none. -/
theorem vec_sKept : (vecScatterDims N E wf).sKept = [] := rfl

/-- On the operand's axis, the inserted one, the window coordinate is 0. -/
theorem vec_window0 (j : (⟨1, ![E]⟩ : Shape).Idx) :
    (vecScatterDims N E wf).window j 0 = 0 := by
  unfold ScatterDims.window
  rw [dif_neg (show ¬ (0 : Fin 1) ∈ (vecScatterDims N E wf).sKept from
    fun h => absurd ((vec_sKept wf) ▸ h) (List.not_mem_nil))]

/-- Update e lands on operand element n exactly when the index word of row e, read signed, is n. -/
theorem vec_resultIdx_iff (e : Fin E) (idx : IVec ⟨2, ![E, 1]⟩ w) (n : Fin N) :
    (vecScatterDims N E wf).resultIdx? (ix1 e) idx = some (ix1 n)
      ↔ (idx (ix2 e (0 : Fin 1))).toInt = (n.val : Int) := by
  have h0 : (vecScatterDims N E wf).start (ix1 e) idx 0 + ((vecScatterDims N E wf).window (ix1 e) 0 : Int)
      = (idx (ix2 e (0 : Fin 1))).toInt := by
    rw [vec_start0, vec_window0]; simp
  unfold ScatterDims.resultIdx?
  constructor
  · intro h
    split at h
    · rename_i hin
      have hf := Option.some.inj h
      have e0 := congrArg (fun f => (f 0).val) hf
      simp only at e0
      have hin0 := hin 0
      rw [h0] at e0 hin0
      have : ((idx (ix2 e (0 : Fin 1))).toInt.toNat : Int) = (n.val : Int) := by exact_mod_cast e0
      omega
    · exact absurd h (by simp)
  · intro hn
    have hin : ∀ a, 0 ≤ (vecScatterDims N E wf).start (ix1 e) idx a + (vecScatterDims N E wf).window (ix1 e) a ∧
        (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + ((vecScatterDims N E wf).window (ix1 e) 0 : Int) ∧
          (vecScatterDims N E wf).start (ix1 e) idx 0 + ((vecScatterDims N E wf).window (ix1 e) 0 : Int) < ((N : Nat) : Int)
        have := n.isLt
        rw [h0, hn]; omega
    rw [dif_pos hin]
    congr 1
    funext a
    refine Fin.ext ?_
    match a with
    | ⟨0, _⟩ =>
      show ((vecScatterDims N E wf).start (ix1 e) idx 0 + ((vecScatterDims N E wf).window (ix1 e) 0 : Int)).toNat = n.val
      rw [h0, hn]; simp

/-- SCATTER-ADD OF SCALARS READ AT n, operand [N]: the operand's element plus the sum, over the updates e whose
    index word read signed is n, of update e. -/
theorem scatterAdd_vec (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_nbij' (fun j : (⟨1, ![E]⟩ : Shape).Idx => (⟨(j 0).val, (j 0).isLt⟩ : Fin E))
    (fun e : Fin E => (ix1 e : (⟨1, ![E]⟩ : Shape).Idx)) ?_ ?_ ?_ ?_ ?_
  · intro j hj
    obtain ⟨a, rfl⟩ : ∃ a : Fin E, j = ix1 a := ⟨j 0, eq_ix1 j⟩
    exact Finset.mem_filter.2 ⟨Finset.mem_univ _, (vec_resultIdx_iff wf a idx n).1 (Finset.mem_filter.1 hj).2⟩
  · intro e he
    exact Finset.mem_filter.2 ⟨Finset.mem_univ _, (vec_resultIdx_iff wf e idx n).2 (Finset.mem_filter.1 he).2⟩
  · intro j _
    obtain ⟨a, rfl⟩ : ∃ a : Fin E, j = ix1 a := ⟨j 0, eq_ix1 j⟩
    rfl
  · intro e _
    rfl
  · intro j _
    obtain ⟨a, rfl⟩ : ∃ a : Fin E, j = ix1 a := ⟨j 0, eq_ix1 j⟩
    rfl

end Vec

end SageLib

end
-- ==== Proof.LibRealEntries.lean ====
/-
  Extended reals that are real numbers, and the distributive law they rescue.

  On the extended reals `x · (a + b) = x · a + x · b` fails in general (take `x = ⊤`, `a = 2`, `b = -1`), but it holds
  as soon as `x` and `b` are real numbers, whatever `a` is: for `a = ±∞` both sides are `x · a` (or `0` when `x = 0`).
  Sums and products of real entries are real, and the coercion from the reals commutes with finite sums.
-/
import Mathlib

noncomputable section

namespace Cert.LibRealEntries

/-- The extended real is a real number. -/
def IsReal (x : EReal) : Prop := ∃ r : ℝ, x = (r : EReal)

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem coe_sum {ι : Type*} (t : Finset ι) (g : ι → ℝ) :
    (∑ i ∈ t, ((g i : ℝ) : EReal)) = ((∑ i ∈ t, g i : ℝ) : EReal) := by
  classical
  induction t using Finset.induction_on with
  | empty => simp
  | insert a t ha ih => rw [Finset.sum_insert ha, Finset.sum_insert ha, ih, EReal.coe_add]

theorem IsReal.sum {ι : Type*} [Fintype ι] (f : ι → EReal) (h : ∀ i, IsReal (f i)) : IsReal (∑ i, f i) := by
  choose g hg using h
  exact ⟨∑ i, g i, by rw [← coe_sum]; exact Finset.sum_congr rfl fun i _ => hg i⟩

/-- `x · (a + b) = x · a + b · x` for real `x` and `b` and any extended real `a`. -/
theorem mul_add_of_real {x a b : EReal} (hx : IsReal x) (hb : IsReal b) : x * (a + b) = x * a + b * x := by
  obtain ⟨r, rfl⟩ := hx; obtain ⟨s, rfl⟩ := hb
  induction a using EReal.rec with
  | bot =>
    rw [EReal.bot_add]
    rcases lt_trichotomy r 0 with h | h | h
    · rw [EReal.coe_mul_bot_of_neg h, ← EReal.coe_mul, EReal.top_add_coe]
    · subst h; rw [EReal.coe_zero, zero_mul, mul_zero, add_zero]
    · rw [EReal.coe_mul_bot_of_pos h, EReal.bot_add]
  | coe t =>
    rw [← EReal.coe_add, ← EReal.coe_mul, ← EReal.coe_mul, ← EReal.coe_mul, ← EReal.coe_add]
    congr 1; ring
  | top =>
    rw [EReal.top_add_coe]
    rcases lt_trichotomy r 0 with h | h | h
    · rw [EReal.coe_mul_top_of_neg h, EReal.bot_add]
    · subst h; rw [EReal.coe_zero, zero_mul, mul_zero, add_zero]
    · rw [EReal.coe_mul_top_of_pos h, ← EReal.coe_mul, EReal.top_add_coe]

end Cert.LibRealEntries

end
-- ==== Proof.LibLayerLaw.lean ====
/-
  The one algebraic law behind a graph layer that projects before it averages.

  A layer takes, for a node, the mean over its incoming edges of the neighbours' feature rows and then applies a
  weight vector: it sums the rows over the edge set, divides by the clamped in-degree, and takes the inner product
  with the weights. Pushing the weights through the mean gives the other order: take each neighbour's inner product
  with the weights first, sum those numbers over the edge set, and divide once.

  On the extended reals the two orders differ in general, because multiplication does not distribute over addition
  when infinities meet. They agree as soon as every feature entry and every weight is a real number and the divisor
  is a nonzero real number: then every quantity in sight is the coercion of a real expression, division by the
  divisor is multiplication by its real reciprocal, and the identity is the exchange of two finite sums together
  with the distributive law of the real field.

  The file also records that maxima, finite sums and quotients by a nonzero real keep real entries real, and that
  the clamped in-degree, the larger of a count of ones and one, is a real number at least one, hence nonzero.
-/
import Mathlib
import Idealize.ShloMosaic.PureOps.Ideal
import proofs.«100433_j5497558139163_2_alg».proof.Proof.LibRealEntries

noncomputable section

namespace Cert.LayerLaw

open Cert.LibRealEntries Idealize.ShloMosaic

/-- The larger of two real numbers is a real number. -/
theorem isReal_max {x y : EReal} (hx : IsReal x) (hy : IsReal y) : IsReal (max x y) := by
  rcases max_choice x y with h | h
  · rw [h]; exact hx
  · rw [h]; exact hy

/-- A sum over a finite set of real numbers is a real number. -/
theorem isReal_sum_finset {ι : Type*} (t : Finset ι) (f : ι → EReal) (h : ∀ i ∈ t, IsReal (f i)) :
    IsReal (∑ i ∈ t, f i) := by
  classical
  induction t using Finset.induction_on with
  | empty => exact ⟨0, by simp⟩
  | insert a t ha ih =>
    rw [Finset.sum_insert ha]
    exact IsReal.add (h a (Finset.mem_insert_self a t)) (ih fun i hi => h i (Finset.mem_insert_of_mem hi))

/-- The quotient of a real number by a nonzero real number is a real number. -/
theorem isReal_div {x D : EReal} (hx : IsReal x) (hD : ∃ r : ℝ, r ≠ 0 ∧ D = (r : EReal)) :
    IsReal (Ideal.div x D) := by
  obtain ⟨a, rfl⟩ := hx
  obtain ⟨r, hr, rfl⟩ := hD
  rw [Ideal.div_coe hr]
  exact ⟨a * (1 / r), (EReal.coe_mul _ _).symm⟩

/-- The clamped in-degree: the larger of a sum of ones over the edge set (started from zero) and one is a real
    number at least one, in particular a nonzero real number. -/
theorem count_divisor {E : Type*} (S : Finset E) (one zero : EReal) (h1 : one = 1) (h0 : zero = 0) :
    ∃ r : ℝ, r ≠ 0 ∧ max (zero + ∑ _e ∈ S, one) one = (r : EReal) := by
  subst h1 h0
  have hs : (∑ _e ∈ S, (1 : EReal)) = ((S.card : ℝ) : EReal) := by
    have hc : (∑ _e ∈ S, ((1 : ℝ) : EReal)) = ((∑ _e ∈ S, (1 : ℝ) : ℝ) : EReal) := coe_sum S fun _ => (1 : ℝ)
    rw [EReal.coe_one] at hc
    rw [hc, Finset.sum_const, nsmul_eq_mul, mul_one]
  rw [zero_add, hs]
  refine ⟨max (S.card : ℝ) 1, ?_, ?_⟩
  · have h : (1 : ℝ) ≤ max (S.card : ℝ) 1 := le_max_right _ _
    intro h0
    rw [h0] at h
    exact absurd h (by norm_num)
  · rw [← EReal.coe_one]
    exact (EReal.coe_strictMono.monotone.map_max).symm

/-- Averaging the projected rows equals projecting the averaged rows: for real feature entries, real weights and a
    nonzero real divisor, the quotient of the summed inner products is the inner product of the quotients of the
    summed rows. -/
theorem project_then_average {E N K : Type*} [Fintype K] (S : Finset E) (ρ : E → N) (h : N → K → EReal)
    (W : K → EReal) (z D : EReal)
    (hh : ∀ p d, IsReal (h p d)) (hW : ∀ d, IsReal (W d)) (hz : z = 0) (hD : ∃ r : ℝ, r ≠ 0 ∧ D = (r : EReal)) :
    Ideal.div (z + ∑ e ∈ S, ∑ d, h (ρ e) d * W d) D = ∑ d, Ideal.div (z + ∑ e ∈ S, h (ρ e) d) D * W d := by
  subst hz
  obtain ⟨r, hr, rfl⟩ := hD
  choose g hg using hh
  choose w hw using hW
  -- the left side as the coercion of a real expression
  have hL : (∑ e ∈ S, ∑ d, h (ρ e) d * W d) = ((∑ e ∈ S, ∑ d, g (ρ e) d * w d : ℝ) : EReal) := by
    rw [← coe_sum]
    refine Finset.sum_congr rfl fun e _ => ?_
    rw [← coe_sum]
    refine Finset.sum_congr rfl fun d _ => ?_
    rw [hg, hw, EReal.coe_mul]
  -- each summed column as the coercion of a real sum
  have hC : ∀ d, (∑ e ∈ S, h (ρ e) d) = ((∑ e ∈ S, g (ρ e) d : ℝ) : EReal) := by
    intro d
    rw [← coe_sum]
    exact Finset.sum_congr rfl fun e _ => hg _ _
  -- each term of the right side as the coercion of a real expression
  have hT : ∀ d, Ideal.div (0 + ∑ e ∈ S, h (ρ e) d) (r : EReal) * W d
      = (((∑ e ∈ S, g (ρ e) d) * (1 / r) * w d : ℝ) : EReal) := by
    intro d
    rw [zero_add, hC, Ideal.div_coe hr, hw, ← EReal.coe_mul, ← EReal.coe_mul]
  have hR : (∑ d, Ideal.div (0 + ∑ e ∈ S, h (ρ e) d) (r : EReal) * W d)
      = ((∑ d, (∑ e ∈ S, g (ρ e) d) * (1 / r) * w d : ℝ) : EReal) := by
    rw [← coe_sum]
    exact Finset.sum_congr rfl fun d _ => hT d
  rw [hR, zero_add, hL, Ideal.div_coe hr, ← EReal.coe_mul]
  congr 1
  -- the identity in the real field
  rw [Finset.sum_comm, Finset.sum_mul]
  refine Finset.sum_congr rfl fun d _ => ?_
  simp only [Finset.sum_mul]
  exact Finset.sum_congr rfl fun e _ => by ring

end Cert.LayerLaw

end
-- ==== Proof.Neighbours.lean ====
/-
  The neighbourhood mean of a table of rows, as the host computes it, read at one entry.

  A graph on 100000 nodes is given by 1600000 edges, each a source word and a destination word. The mean over the
  edges into node `n` of the source rows of a table `T` with `D` columns is computed in five steps: a negative source
  word is wrapped by adding the number of nodes; the table's rows are gathered at the wrapped words (a word that is
  still out of range is clamped to the nearest row); the gathered rows are added into a zero table at their
  destination words (a destination outside the table adds nothing); the sums are divided by a per-node divisor,
  first spread along the columns. Read at entry `(n, o)` the result is the quotient, by node `n`'s divisor, of zero plus
  the sum over the edges whose destination word is `n` of column `o` of the row their source word names.

  The divisor is the in-degree clamped from below by one: ones added into a zero vector at the destination words,
  then the maximum with one. Read at node `n` it is `max (0 + (number of edges into n) · 1) 1`, a real number that is
  at least one, so dividing by it is multiplying by a real number.

  The width `D` is a parameter: the same reading serves the first layer (the input rows, 64 columns), the
  reference's second layer (the hidden rows, 64 columns) and the kernel's second layer (the projected rows, 32).
-/
import Idealize.ShloMosaic.Lib.ValueIdx
import Idealize.ShloMosaic.Lib.Pipeline.Value
import Idealize.ShloMosaic.Lib.IdealHost
import Idealize.ShloMosaic.PureOps.Ideal.Laws
import proofs.«100433_j5497558139163_2_alg».proof.Proof.LibGatherRowsFlat
import proofs.«100433_j5497558139163_2_alg».proof.Proof.LibScatterRows
import proofs.«100433_j5497558139163_2_alg».proof.Proof.LibScatterVec
import proofs.«100433_j5497558139163_2_alg».proof.Proof.LibLayerLaw

noncomputable section

open scoped BigOperators

namespace Sage

open Idealize.ShloMosaic Idealize.ShloMosaic.ValueIdx Cert.LibRealEntries

/-! ## Shapes -/

/-- A table with one row per node and `D` columns. -/
abbrev SN (D : Nat) : Shape := ⟨2, ![100000, D]⟩
/-- A table with one row per edge and `D` columns. -/
abbrev SE (D : Nat) : Shape := ⟨2, ![1600000, D]⟩
/-- One word per edge. -/
abbrev SEv : Shape := ⟨1, ![1600000]⟩
/-- One word per edge, as a column. -/
abbrev SEc : Shape := ⟨2, ![1600000, 1]⟩
/-- One number per node. -/
abbrev SNv : Shape := ⟨1, ![100000]⟩
/-- One number per node, as a column. -/
abbrev SNc : Shape := ⟨2, ![100000, 1]⟩
/-- A scalar. -/
abbrev S0 : Shape := ⟨0, ![]⟩

/-- The shape conditions of the operations on the edge words and on the per-node numbers. -/
structure EdgeConds : Prop where
  bE : S0.BroadcastsInDim SEv (![] : Fin 0 → Fin SEv.rank)
  bN : S0.BroadcastsInDim SNv (![] : Fin 0 → Fin SNv.rank)
  bEc : SEv.BroadcastsInDim SEc (![0] : Fin 1 → Fin SEc.rank)
  bNc : SNv.BroadcastsInDim SNc (![0] : Fin 1 → Fin SNc.rank)
  wfV : ScatterDims.WF SNv SEc SEv [] [0] [0] 1

/-- The shape conditions of the operations on a table with `D` columns. -/
structure TableConds (D : Nat) : Prop where
  bND : S0.BroadcastsInDim (SN D) (![] : Fin 0 → Fin (SN D).rank)
  bNcD : SNc.BroadcastsInDim (SN D) (![0, 1] : Fin 2 → Fin (SN D).rank)
  wfG : GatherDims.WF (SN D) SEc (SE D) [1] [0] [] [0] [] 1 ![1, D]
  wfS : ScatterDims.WF (SN D) SEc (SE D) [1] [0] [0] 1

/-! ## Two keepdims forms read at coordinates -/

/-- A vector spread into a one-column matrix reads, at row `r`, the vector's entry `r`. -/
theorem column_apply {α : Type} {a : Nat} (h : (⟨1, ![a]⟩ : Shape).BroadcastsInDim ⟨2, ![a, 1]⟩ (![0] : Fin 1 → Fin 2))
    (x : (⟨1, ![a]⟩ : Shape).Idx → α) (r : Fin a) (z : Fin 1) :
    broadcastInDim (⟨2, ![a, 1]⟩ : Shape) ![0] h x (ix2 r z) = x (ix1 r) := by
  refine broadcastInDim_apply _ h x (ix2 r z) (ix1 r) (fun b => ?_)
  match b with
  | ⟨0, _⟩ =>
    show r.val = if a = 1 then 0 else r.val
    split
    · have := r.isLt; omega
    · rfl

/-- A one-column matrix spread along `b` columns reads, at `(r, c)`, the column's entry `r`. -/
theorem spread_apply {α : Type} {a b : Nat}
    (h : (⟨2, ![a, 1]⟩ : Shape).BroadcastsInDim ⟨2, ![a, b]⟩ (![0, 1] : Fin 2 → Fin 2))
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply _ h x (ix2 r c) (ix2 r (0 : Fin 1)) (fun d => ?_)
  match d with
  | ⟨0, _⟩ =>
    show r.val = if a = 1 then 0 else r.val
    split
    · have := r.isLt; omega
    · rfl
  | ⟨1, _⟩ => rfl

/-- At the ideal values the host's scatter-add is the exact sum (stated over any shapes, where it is by definition). -/
theorem scatterAdd_eq {s si u : Shape} {w : Nat} {φ : FTy} (d : ScatterDims s si u) (x : FVec Ideal s φ) (idx : IVec si w)
    (upd : FVec Ideal u φ) : Host.scatterAdd d x idx upd = Ideal.hostScatterAdd d x idx upd := rfl

/-! ## The edges into a node, and the clamped in-degree -/

/-- The edges into node `n`: those whose destination word, read signed, is `n`. -/
def into (dst : IVec SEv 32) (n : Fin 100000) : Finset (Fin 1600000) :=
  Finset.univ.filter fun e : Fin 1600000 => (dst (ix1 e)).toInt = (n.val : Int)

/-- The per-node divisor: ones added into a zero vector at the destination words, then the maximum with one. -/
def clampedDeg (ce : EdgeConds) (dst : IVec SEv 32) : FVec Ideal SNv .f32 :=
  maximumf
    (Host.scatterAdd (SageLib.vecScatterDims 100000 1600000 ce.wfV)
      (broadcastInDim SNv ![] ce.bN (constant (F := Ideal) S0 .f32 0x00000000#32))
      (broadcastInDim SEc ![0] ce.bEc dst)
      (broadcastInDim SEv ![] ce.bE (constant (F := Ideal) S0 .f32 0x3F800000#32)))
    (broadcastInDim SNv ![] ce.bN (constant (F := Ideal) S0 .f32 0x3F800000#32))

/-- The divisor of node `n` is the maximum with one of zero plus a one for every edge into `n`. -/
theorem clampedDeg_apply (ce : EdgeConds) (dst : IVec SEv 32) (n : Fin 100000) :
    clampedDeg ce dst (ix1 n)
      = max (Ideal.ofBits .f32 0x00000000#32 + ∑ _e ∈ into dst n, Ideal.ofBits .f32 0x3F800000#32)
          (Ideal.ofBits .f32 0x3F800000#32) := by
  unfold clampedDeg into
  rw [maximumf_apply, scatterAdd_eq, SageLib.scatterAdd_vec, broadcastInDim_scalar_apply, broadcastInDim_scalar_apply]
  refine congrArg (fun t => max (Ideal.ofBits .f32 0x00000000#32 + t) (Ideal.ofBits .f32 0x3F800000#32)) ?_
  refine Finset.sum_congr (Finset.filter_congr fun e _ => by rw [column_apply]) (fun e _ => ?_)
  rw [broadcastInDim_scalar_apply]
  rfl

/-- The divisor of every node is a real number other than zero. -/
theorem clampedDeg_real (ce : EdgeConds) (dst : IVec SEv 32) (n : Fin 100000) :
    ∃ r : ℝ, r ≠ 0 ∧ clampedDeg ce dst (ix1 n) = (r : EReal) := by
  rw [clampedDeg_apply]
  exact Cert.LayerLaw.count_divisor _ _ _ Ideal.ofBits_one_f32 Ideal.ofBits_zero_f32

/-! ## The mean -/

variable {D : Nat}

/-- The source words with the negative ones wrapped: `w` below zero becomes `w + 100000`. -/
def wrapped (ce : EdgeConds) (src : IVec SEv 32) : IVec SEv 32 :=
  select (cmpi .slt src (broadcastInDim SEv ![] ce.bE (constantI S0 32 0#32)))
    (addi src (broadcastInDim SEv ![] ce.bE (constantI S0 32 100000#32))) src

/-- The mean over incoming edges of the source rows of `T`, by the per-node divisors `den`: gather the rows at the
    wrapped source words, add them into a zero table at the destination words, divide by the divisors spread
    along the columns. -/
def meanOver (ce : EdgeConds) (ct : TableConds D) (T : FVec Ideal (SN D) .f32) (src dst : IVec SEv 32)
    (den : FVec Ideal SNv .f32) : FVec Ideal (SN D) .f32 :=
  Host.divf
    (Host.scatterAdd (SageLib.rowScatterDims2 100000 1600000 D ct.wfS)
      (broadcastInDim (SN D) ![] ct.bND (constant (F := Ideal) S0 .f32 0x00000000#32))
      (broadcastInDim SEc ![0] ce.bEc dst)
      (Host.gather (SageLib.rowGatherDims2 100000 1600000 D ct.wfG) T (broadcastInDim SEc ![0] ce.bEc (wrapped ce src))))
    (broadcastInDim (SN D) ![0, 1] ct.bNcD (broadcastInDim SNc ![0] ce.bNc den))

/-- The row edge `e` reads: its wrapped source word, read signed and clamped into the table. -/
def row (ce : EdgeConds) (src : IVec SEv 32) (e : Fin 1600000) : Fin 100000 :=
  ⟨min (wrapped ce src (ix1 e)).toInt.toNat (100000 - 1), by omega⟩

/-- THE MEAN READ AT `(n, o)`: zero plus the sum, over the edges into `n`, of column `o` of the rows they read,
    divided by node `n`'s divisor. -/
theorem meanOver_apply (ce : EdgeConds) (ct : TableConds D) (T : FVec Ideal (SN D) .f32) (src dst : IVec SEv 32)
    (den : FVec Ideal SNv .f32) (n : Fin 100000) (o : Fin D) :
    meanOver ce ct T src dst den (ix2 n o)
      = Ideal.div (Ideal.ofBits .f32 0x00000000#32 + ∑ e ∈ into dst n, T (ix2 (row ce src e) o)) (den (ix1 n)) := by
  unfold meanOver into row
  rw [hostDivf_apply, spread_apply, column_apply, scatterAdd_eq, SageLib.scatterAdd_rows2, broadcastInDim_scalar_apply]
  refine congrArg (fun t => Ideal.div (Ideal.ofBits .f32 0x00000000#32 + t) (den (ix1 n))) ?_
  refine Finset.sum_congr (Finset.filter_congr fun e _ => by rw [column_apply]) (fun e _ => ?_)
  rw [SageLib.gather_rows2 (by decide)]
  refine congrArg (fun r : Fin 100000 => T (ix2 r o)) (Fin.ext ?_)
  exact congrArg (fun w : BitVec 32 => min w.toInt.toNat (100000 - 1)) (column_apply ce.bEc (wrapped ce src) e (0 : Fin 1))

/-- The mean of a table of real entries, by the clamped in-degrees, has real entries. -/
theorem meanOver_real (ce : EdgeConds) (ct : TableConds D) (T : FVec Ideal (SN D) .f32) (src dst : IVec SEv 32)
    (hT : ∀ (p : Fin 100000) (o : Fin D), IsReal (T (ix2 p o))) (n : Fin 100000) (o : Fin D) :
    IsReal (meanOver ce ct T src dst (clampedDeg ce dst) (ix2 n o)) := by
  rw [meanOver_apply]
  refine Cert.LayerLaw.isReal_div (IsReal.add ⟨0, by rw [Ideal.ofBits_zero_f32]; rfl⟩ ?_) (clampedDeg_real ce dst n)
  exact Cert.LayerLaw.isReal_sum_finset _ _ fun e _ => hT _ _

end Sage

end
-- ==== Proof.EdgeWords.lean ====
/-
  One vector of edge words, built in two arrangements.

  Two index arrays of shape [2, n] hold, in row 0 and row 1, two words per edge. The vector of the row-r words of
  both arrays, first array first, can be built in two ways. Slicing first: cut row r out of each array
  ([2, n] to [1, n]), flatten each ([1, n] to [n]) and join the two vectors end to end ([n + n]). Joining first:
  join the two arrays side by side along the second axis ([2, n + n]), cut row r out ([1, n + n]) and flatten
  ([n + n]).

  Both arrangements read, at position e, the same element: element (r, e) of the first array when e < n, and
  element (r, e - n) of the second array otherwise. For the flattening this is the row-major position of (0, c) in
  a [1, k] array being c; for the slice it is the shift of the row coordinate by r; for a join of two pieces it is
  the rule that a coordinate below the first extent falls in the first piece and any other coordinate falls in the
  second piece, the first extent less. Hence the two vectors are equal as functions of the position.

  The reading lemmas are proved for any length n (and m = n + n) and then used at n = 800000.
-/
import Idealize.ShloMosaic.Lib.ValueIdx
import Idealize.ShloMosaic.Lib.Pipeline.Value

noncomputable section

namespace Sage.Words

open Idealize.ShloMosaic Idealize.ShloMosaic.ValueIdx

/-! ## Reading lemmas at any length -/

section General
variable {n m : Nat} {α : Type}

/-- Row r of a [2, k] array, cut out and flattened, read at position c, is element (r, c) of the array. -/
theorem flatRow_apply {k : Nat} (r : Fin 2) (hs : (⟨2, ![2, k]⟩ : Shape).Slices ![r.val, 0] ⟨2, ![1, k]⟩)
    (hc : (⟨2, ![1, k]⟩ : Shape).ShapeCasts ⟨1, ![k]⟩) (x : (⟨2, ![2, k]⟩ : Shape).Idx → α) (c : Fin k) :
    shapeCast (⟨1, ![k]⟩ : Shape) (extractStridedSlice (⟨2, ![1, k]⟩ : Shape) ![r.val, 0] x hs) hc (ix1 c)
      = x (ix2 r c) := by
  refine (shapeCast_apply _ hc (ix1 c) (ix2 (0 : Fin 1) c) ?_).trans ?_
  · rw [Shape.rowMajor_val_two, Shape.rowMajor_val_one]
    show 0 * k + c.val = c.val
    omega
  · exact extractStridedSlice_apply ![r.val, 0] x hs (ix2 (0 : Fin 1) c) (ix2 r c) (fun a => match a with
      | ⟨0, _⟩ => by show r.val = r.val + 0; omega
      | ⟨1, _⟩ => by show c.val = 0 + c.val; omega)

/-- Two vectors of length n joined end to end, read at position e: the first below n, the second from n on. -/
theorem joinVec_apply (hm : m = n + n)
    (hcat : Shape.Concatenates [(⟨1, ![n]⟩ : Shape), (⟨1, ![n]⟩ : Shape)] (⟨1, ![m]⟩ : Shape) 0)
    (y1 y3 : (⟨1, ![n]⟩ : Shape).Idx → α) (e : Fin m) :
    concatenate (⟨1, ![m]⟩ : Shape) 0 [⟨(⟨1, ![n]⟩ : Shape), y1⟩, ⟨(⟨1, ![n]⟩ : Shape), y3⟩] hcat (ix1 e)
      = if h : e.val < n then y1 (ix1 ⟨e.val, h⟩) else y3 (ix1 ⟨e.val - n, by omega⟩) := by
  by_cases h : e.val < n
  · rw [dif_pos h]
    exact concatenate_pair_apply_left _ y1 y3 hcat (ix1 e) rfl (ix1 ⟨e.val, h⟩) (fun b => match b with
      | ⟨0, _⟩ => rfl)
  · rw [dif_neg h]
    exact concatenate_pair_apply_right _ y1 y3 hcat (ix1 e) rfl rfl (ix1 ⟨e.val - n, by omega⟩)
      (fun b hb => absurd (Subsingleton.elim _ _) hb)
      (by show (e.val - n) + n = e.val; omega)

/-- Two [2, n] arrays joined side by side, read at (r, e): the first below n, the second from n on. -/
theorem joinRows_apply (hm : m = n + n) (r : Fin 2)
    (hcat2 : Shape.Concatenates [(⟨2, ![2, n]⟩ : Shape), (⟨2, ![2, n]⟩ : Shape)] (⟨2, ![2, m]⟩ : Shape) 1)
    (x1 x3 : (⟨2, ![2, n]⟩ : Shape).Idx → α) (e : Fin m) :
    concatenate (⟨2, ![2, m]⟩ : Shape) 1 [⟨(⟨2, ![2, n]⟩ : Shape), x1⟩, ⟨(⟨2, ![2, n]⟩ : Shape), x3⟩] hcat2 (ix2 r e)
      = if h : e.val < n then x1 (ix2 r ⟨e.val, h⟩) else x3 (ix2 r ⟨e.val - n, by omega⟩) := by
  by_cases h : e.val < n
  · rw [dif_pos h]
    exact concatenate_pair_apply_left _ x1 x3 hcat2 (ix2 r e) rfl (ix2 r ⟨e.val, h⟩) (fun b => match b with
      | ⟨0, _⟩ => rfl
      | ⟨1, _⟩ => rfl)
  · rw [dif_neg h]
    exact concatenate_pair_apply_right _ x1 x3 hcat2 (ix2 r e) rfl rfl (ix2 r ⟨e.val - n, by omega⟩)
      (fun b hb => match b, hb with
        | ⟨0, _⟩, _ => rfl
        | ⟨1, _⟩, hb => absurd (Fin.ext rfl) hb)
      (by show (e.val - n) + n = e.val; omega)

/-- Slicing first, read at position e. -/
theorem sliceFirst_apply (hm : m = n + n) (r : Fin 2)
    (hs : (⟨2, ![2, n]⟩ : Shape).Slices ![r.val, 0] ⟨2, ![1, n]⟩)
    (hc : (⟨2, ![1, n]⟩ : Shape).ShapeCasts ⟨1, ![n]⟩)
    (hcat : Shape.Concatenates [(⟨1, ![n]⟩ : Shape), (⟨1, ![n]⟩ : Shape)] (⟨1, ![m]⟩ : Shape) 0)
    (x1 x3 : (⟨2, ![2, n]⟩ : Shape).Idx → α) (e : Fin m) :
    concatenate (⟨1, ![m]⟩ : Shape) 0
        [⟨(⟨1, ![n]⟩ : Shape), shapeCast (⟨1, ![n]⟩ : Shape) (extractStridedSlice (⟨2, ![1, n]⟩ : Shape) ![r.val, 0] x1 hs) hc⟩,
         ⟨(⟨1, ![n]⟩ : Shape), shapeCast (⟨1, ![n]⟩ : Shape) (extractStridedSlice (⟨2, ![1, n]⟩ : Shape) ![r.val, 0] x3 hs) hc⟩]
        hcat (ix1 e)
      = if h : e.val < n then x1 (ix2 r ⟨e.val, h⟩) else x3 (ix2 r ⟨e.val - n, by omega⟩) := by
  rw [joinVec_apply hm hcat _ _ e]
  by_cases h : e.val < n
  · rw [dif_pos h, dif_pos h, flatRow_apply]
  · rw [dif_neg h, dif_neg h, flatRow_apply]

/-- Joining first, read at position e. -/
theorem joinFirst_apply (hm : m = n + n) (r : Fin 2)
    (hcat2 : Shape.Concatenates [(⟨2, ![2, n]⟩ : Shape), (⟨2, ![2, n]⟩ : Shape)] (⟨2, ![2, m]⟩ : Shape) 1)
    (hs2 : (⟨2, ![2, m]⟩ : Shape).Slices ![r.val, 0] ⟨2, ![1, m]⟩)
    (hc2 : (⟨2, ![1, m]⟩ : Shape).ShapeCasts ⟨1, ![m]⟩)
    (x1 x3 : (⟨2, ![2, n]⟩ : Shape).Idx → α) (e : Fin m) :
    shapeCast (⟨1, ![m]⟩ : Shape) (extractStridedSlice (⟨2, ![1, m]⟩ : Shape) ![r.val, 0]
        (concatenate (⟨2, ![2, m]⟩ : Shape) 1 [⟨(⟨2, ![2, n]⟩ : Shape), x1⟩, ⟨(⟨2, ![2, n]⟩ : Shape), x3⟩] hcat2) hs2) hc2 (ix1 e)
      = if h : e.val < n then x1 (ix2 r ⟨e.val, h⟩) else x3 (ix2 r ⟨e.val - n, by omega⟩) := by
  rw [flatRow_apply r hs2 hc2 _ e]
  exact joinRows_apply hm r hcat2 x1 x3 e

end General

/-! ## The two arrangements at the literal shapes -/

abbrev S2h : Shape := ⟨2, ![2, 800000]⟩
abbrev S1h : Shape := ⟨2, ![1, 800000]⟩
abbrev Sh : Shape := ⟨1, ![800000]⟩
abbrev S2f : Shape := ⟨2, ![2, 1600000]⟩
abbrev S1f : Shape := ⟨2, ![1, 1600000]⟩
abbrev SEv : Shape := ⟨1, ![1600000]⟩

/-- Slicing first: the row at offsets off of each array, flattened, the two vectors joined end to end. -/
def wordsSliceFirst (off : Fin 2 → Nat) (hs : S2h.Slices off S1h) (hc : S1h.ShapeCasts Sh)
    (hcat : Shape.Concatenates [Sh, Sh] SEv 0) (a1 a3 : IVec S2h 32) : IVec SEv 32 :=
  concatenate SEv 0 [⟨Sh, shapeCast Sh (extractStridedSlice S1h off a1 hs) hc⟩, ⟨Sh, shapeCast Sh (extractStridedSlice S1h off a3 hs) hc⟩] hcat

/-- Joining first: the two arrays joined side by side, the row at offsets off cut out and flattened. -/
def wordsJoinFirst (off : Fin 2 → Nat) (hcat2 : Shape.Concatenates [S2h, S2h] S2f 1) (hs2 : S2f.Slices off S1f)
    (hc2 : S1f.ShapeCasts SEv) (a1 a3 : IVec S2h 32) : IVec SEv 32 :=
  shapeCast SEv (extractStridedSlice S1f off (concatenate S2f 1 [⟨S2h, a1⟩, ⟨S2h, a3⟩] hcat2) hs2) hc2

/-- Slicing first, read at position e: element (r, e) of the first array below 800000, element (r, e - 800000) of
    the second array from there on. -/
theorem wordsSliceFirst_apply (r : Fin 2) (hs : S2h.Slices ![r.val, 0] S1h) (hc : S1h.ShapeCasts Sh)
    (hcat : Shape.Concatenates [Sh, Sh] SEv 0) (a1 a3 : IVec S2h 32) (e : Fin 1600000) :
    wordsSliceFirst ![r.val, 0] hs hc hcat a1 a3 (ix1 e)
      = if h : e.val < 800000 then a1 (ix2 r ⟨e.val, h⟩) else a3 (ix2 r ⟨e.val - 800000, by omega⟩) := by
  unfold wordsSliceFirst
  exact sliceFirst_apply (n := 800000) (m := 1600000) (by omega) r hs hc hcat a1 a3 e

/-- Joining first, read at position e: the same reading. -/
theorem wordsJoinFirst_apply (r : Fin 2) (hcat2 : Shape.Concatenates [S2h, S2h] S2f 1)
    (hs2 : S2f.Slices ![r.val, 0] S1f) (hc2 : S1f.ShapeCasts SEv) (a1 a3 : IVec S2h 32) (e : Fin 1600000) :
    wordsJoinFirst ![r.val, 0] hcat2 hs2 hc2 a1 a3 (ix1 e)
      = if h : e.val < 800000 then a1 (ix2 r ⟨e.val, h⟩) else a3 (ix2 r ⟨e.val - 800000, by omega⟩) := by
  unfold wordsJoinFirst
  exact joinFirst_apply (n := 800000) (m := 1600000) (by omega) r hcat2 hs2 hc2 a1 a3 e

/-- The two arrangements give the same vector of edge words. -/
theorem words_eq (r : Fin 2) (hs : S2h.Slices ![r.val, 0] S1h) (hc : S1h.ShapeCasts Sh)
    (hcat : Shape.Concatenates [Sh, Sh] SEv 0) (hcat2 : Shape.Concatenates [S2h, S2h] S2f 1)
    (hs2 : S2f.Slices ![r.val, 0] S1f) (hc2 : S1f.ShapeCasts SEv) (a1 a3 : IVec S2h 32) :
    wordsSliceFirst ![r.val, 0] hs hc hcat a1 a3 = wordsJoinFirst ![r.val, 0] hcat2 hs2 hc2 a1 a3 := by
  funext j
  obtain ⟨e, rfl⟩ : ∃ e : Fin 1600000, j = ix1 e := ⟨j 0, eq_ix1 j⟩
  rw [wordsSliceFirst_apply, wordsJoinFirst_apply]

end Sage.Words

end
-- ==== Proof.KernelHostBase.lean ====
/-
  The kernel program's host operations: the common vocabulary for reading them back.

  The kernel program runs in four stretches: host operations, the first dense layer, host operations, the second
  dense layer. What a dense layer leaves is a function of the buffer contents it is entered with, and those are
  what the host operations before it leave, as functions of the arrays the program was launched with.

  This file fixes what the readings are stated in. The shape conditions the operations on the edge words, on the
  per-node numbers and on tables with 64 and with 32 columns need all hold, and the program's gather and scatter
  records are the dimension numbers of the row gather, the row scatter and the vector scatter. The source words
  and the destination words of all edges are row 0 and row 1 of each of the two index arrays, flattened, the two
  vectors joined end to end. The arrays the program is launched with get names.

  Reading a buffer off a list of operations is a computation: every operation writes its own result buffer, as its
  function of the contents of its operand buffers, and leaves every other buffer alone.
-/
import proofs.«100433_j5497558139163_2_alg».proof.Proof.Gen.KernelIdeal.Frame
import proofs.«100433_j5497558139163_2_alg».proof.Proof.Neighbours
import proofs.«100433_j5497558139163_2_alg».proof.Proof.EdgeWords
import Idealize.ShloMosaic.Lib.ValueLayout
import Idealize.ShloMosaic.Lib.StableHlo.Run

noncomputable section

namespace Cert.KernelIdeal.Host

open Cert.KernelIdeal Cert.KernelIdeal.Gen Idealize.ShloMosaic Idealize.ShloMosaic.TcCoe Idealize.ShloMosaic.ValueIdx
  Idealize.SL.Sem

/-! ## The shape conditions and the dimension records -/

/-- The shape conditions of the operations on the edge words and the per-node numbers hold. -/
theorem ceK : Sage.EdgeConds :=
  ⟨bcast_S_S1600000, bcast_S_S100000, bcast_S1600000_S1600000x1_0, bcast_S100000_S100000x1_0,
    scatter_S100000_S1600000x1_S1600000_n_0_0_1_wf⟩

/-- The shape conditions of the operations on a table with 64 columns hold. -/
theorem c64K : Sage.TableConds 64 :=
  ⟨bcast_S_S100000x64, bcast_S100000x1_S100000x64_0_1, gather_S100000x64_S1600000x1_S1600000x64_1_0_n_n_0_1_164_wf,
    scatter_S100000x64_S1600000x1_S1600000x64_1_0_0_1_wf⟩

/-- The shape conditions of the operations on a table with 32 columns hold. -/
theorem c32K : Sage.TableConds 32 :=
  ⟨bcast_S_S100000x32, bcast_S100000x1_S100000x32_0_1, gather_S100000x32_S1600000x1_S1600000x32_1_0_n_n_0_1_132_wf,
    scatter_S100000x32_S1600000x1_S1600000x32_1_0_0_1_wf⟩

/-- The program's scalar scatter record is the vector scatter's dimension numbers. -/
theorem scatterV_rec :
    scatter_S100000_S1600000x1_S1600000_n_0_0_1 = SageLib.vecScatterDims 100000 1600000 ceK.wfV := rfl

/-- The program's 64-column row scatter record is the row scatter's dimension numbers. -/
theorem scatter64_rec :
    scatter_S100000x64_S1600000x1_S1600000x64_1_0_0_1 = SageLib.rowScatterDims2 100000 1600000 64 c64K.wfS := rfl

/-- The program's 64-column row gather record is the row gather's dimension numbers. -/
theorem gather64_rec :
    gather_S100000x64_S1600000x1_S1600000x64_1_0_n_n_0_1_164 = SageLib.rowGatherDims2 100000 1600000 64 c64K.wfG := rfl

/-- The program's 32-column row scatter record is the row scatter's dimension numbers. -/
theorem scatter32_rec :
    scatter_S100000x32_S1600000x1_S1600000x32_1_0_0_1 = SageLib.rowScatterDims2 100000 1600000 32 c32K.wfS := rfl

/-- The program's 32-column row gather record is the row gather's dimension numbers. -/
theorem gather32_rec :
    gather_S100000x32_S1600000x1_S1600000x32_1_0_n_n_0_1_132 = SageLib.rowGatherDims2 100000 1600000 32 c32K.wfG := rfl

/-! ## The edge words -/

/-- The source words of all edges: row 0 of each index array, flattened, the two joined end to end. -/
def srcK (a1 a3 : IVec S2x800000 32) : IVec Sage.SEv 32 :=
  Sage.Words.wordsSliceFirst ![0, 0] slices_S2x800000_S1x800000_0_0 shapeCasts_S1x800000_S800000
    concatenates_S800000_S800000_S1600000_d0 a1 a3

/-- The destination words of all edges: row 1 of each index array, flattened, the two joined end to end. -/
def dstK (a1 a3 : IVec S2x800000 32) : IVec Sage.SEv 32 :=
  Sage.Words.wordsSliceFirst ![1, 0] slices_S2x800000_S1x800000_1_0 shapeCasts_S1x800000_S800000
    concatenates_S800000_S800000_S1600000_d0 a1 a3

/-- The rewriting loop for reading a buffer off a list of host operations: each operation's result at its own buffer
    is its function's value, at any other buffer what was there. -/
macro "results_rw" : tactic =>
  `(tactic| (repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

section Run
variable (m : (ℓ : Loc nD τ sig) → Buf (Elt Ideal) ℓ) (ρ : Dev nD → PrngReg) (c : Dev nD)

/-! ## The arrays the program is launched with -/

/-- The input rows. -/
abbrev arg0 : FVec Ideal S100000x64 .f32 := m ((c : Thread nD τ).loc main_arg0)
/-- The first index array. -/
abbrev arg1 : IVec S2x800000 32 := m ((c : Thread nD τ).loc main_arg1)
/-- The second index array. -/
abbrev arg3 : IVec S2x800000 32 := m ((c : Thread nD τ).loc main_arg3)
/-- The first layer's left weight matrix. -/
abbrev arg5 : FVec Ideal S64x64 .f32 := m ((c : Thread nD τ).loc main_arg5)
/-- The first layer's bias. -/
abbrev arg6 : FVec Ideal S64 .f32 := m ((c : Thread nD τ).loc main_arg6)
/-- The first layer's right weight matrix. -/
abbrev arg7 : FVec Ideal S64x64 .f32 := m ((c : Thread nD τ).loc main_arg7)
/-- The second layer's left weight matrix. -/
abbrev arg8 : FVec Ideal S32x64 .f32 := m ((c : Thread nD τ).loc main_arg8)
/-- The second layer's bias. -/
abbrev arg9 : FVec Ideal S32 .f32 := m ((c : Thread nD τ).loc main_arg9)
/-- The second layer's right weight matrix. -/
abbrev arg10 : FVec Ideal S32x64 .f32 := m ((c : Thread nD τ).loc main_arg10)

end Run

end Cert.KernelIdeal.Host

end
-- ==== Proof.KernelHostEdges.lean ====
/-
  The edge words and the divisor column the first dense layer is entered with.

  Run from the launch contents, the host operations before the first dense layer leave: in the buffer of the source
  words, row 0 of each index array, flattened, the two joined end to end; in the buffer of the destination words,
  the same of row 1; and in the divisor column, the clamped in-degree (ones added into a zero vector at the
  destination words, then the maximum with one) spread into a one-column matrix. Each is the composition of the
  operations that write the buffer, read off the list of operations one operation at a time.
-/
import proofs.«100433_j5497558139163_2_alg».proof.Proof.KernelHostBase

noncomputable section

namespace Cert.KernelIdeal.Host

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ) (ρ : Dev nD → PrngReg) (c : Dev nD)

/-- The source words at the first dense layer's entry. -/
theorem entry0_src : (V1 m ρ c main_v8 : S1600000.Idx → BitVec 32) = srcK (arg1 m c) (arg3 m c) := by
  show StableHlo.after hostOps0 (W0 m ρ c) (Proc.devRef .tc main_v8) = _
  after_results_simp
  results_rw
  unfold srcK Sage.Words.wordsSliceFirst
  rfl

/-- The destination words at the first dense layer's entry. -/
theorem entry0_dst : (V1 m ρ c main_v9 : S1600000.Idx → BitVec 32) = dstK (arg1 m c) (arg3 m c) := by
  show StableHlo.after hostOps0 (W0 m ρ c) (Proc.devRef .tc main_v9) = _
  after_results_simp
  results_rw
  unfold dstK Sage.Words.wordsSliceFirst
  rfl

/-- The divisor column at the first dense layer's entry: the clamped in-degrees as a one-column matrix. -/
theorem entry0_degcol : (V1 m ρ c main_v16 : S100000x1.Idx → EReal)
    = broadcastInDim Sage.SNc ![0] ceK.bNc (Sage.clampedDeg ceK (dstK (arg1 m c) (arg3 m c))) := by
  show StableHlo.after hostOps0 (W0 m ρ c) (Proc.devRef .tc main_v16) = _
  after_results_simp
  results_rw
  unfold Sage.clampedDeg dstK Sage.Words.wordsSliceFirst
  rw [scatterV_rec]
  rfl

end Cert.KernelIdeal.Host

end
-- ==== Proof.KernelHostMeans.lean ====
/-
  The mean and the input rows the first dense layer is entered with.

  Run from the launch contents, the host operations before the first dense layer leave, in the buffer of the first
  mean, the neighbourhood mean of the input rows: the rows gathered at the wrapped source words, added into a zero
  table at the destination words, divided by the clamped in-degrees spread along the columns. The operations that
  write the buffer, composed, are the definition of the mean operation for operation. The input rows themselves are
  written by no operation, so their buffer holds what the program was launched with.
-/
import proofs.«100433_j5497558139163_2_alg».proof.Proof.KernelHostBase

noncomputable section

namespace Cert.KernelIdeal.Host

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ) (ρ : Dev nD → PrngReg) (c : Dev nD)

/-- The first mean at the first dense layer's entry: the neighbourhood mean of the input rows. -/
theorem entry0_means : (V1 m ρ c main_v28 : S100000x64.Idx → EReal)
    = Sage.meanOver ceK c64K (arg0 m c) (srcK (arg1 m c) (arg3 m c)) (dstK (arg1 m c) (arg3 m c))
        (Sage.clampedDeg ceK (dstK (arg1 m c) (arg3 m c))) := by
  show StableHlo.after hostOps0 (W0 m ρ c) (Proc.devRef .tc main_v28) = _
  after_results_simp
  results_rw
  unfold Sage.meanOver Sage.clampedDeg Sage.wrapped srcK dstK Sage.Words.wordsSliceFirst
  rw [scatterV_rec, scatter64_rec, gather64_rec]
  rfl

/-- The input rows at the first dense layer's entry are the launched ones. -/
theorem entry0_input : (V1 m ρ c main_arg0 : S100000x64.Idx → EReal) = arg0 m c := by
  show StableHlo.after hostOps0 (W0 m ρ c) (Proc.devRef .tc main_arg0) = _
  after_results_simp <;> rfl

end Cert.KernelIdeal.Host

end
-- ==== Proof.KernelHostWeights.lean ====
/-
  The weight matrices and the bias the first dense layer is entered with.

  The host operations before the first dense layer transpose each weight matrix and convert it to the narrower
  float type, and recast the bias vector as a one-row matrix. A transposed matrix read at (d, o) is the matrix at
  (o, d); on extended reals the conversion is the identity; the recast vector read at (0, o) is the vector at o.
-/
import proofs.«100433_j5497558139163_2_alg».proof.Proof.KernelHostBase

noncomputable section

namespace Cert.KernelIdeal.Host

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ) (ρ : Dev nD → PrngReg) (c : Dev nD)

/-- The first layer's left weights at the first dense layer's entry: the launched matrix, transposed. -/
theorem entry0_left : ∀ d o : Fin 64, (V1 m ρ c main_v30 : S64x64.Idx → EReal) (ix2 d o) = arg5 m c (ix2 o d) := by
  have h : (V1 m ρ c main_v30 : S64x64.Idx → EReal)
      = truncf .bf16 (transpose S64x64 [1, 0] (arg5 m c) transposes_S64x64_S64x64_1_0) bitsLt_bf16_f32 := by
    show StableHlo.after hostOps0 (W0 m ρ c) (Proc.devRef .tc main_v30) = _
    after_results_simp <;> rfl
  intro d o
  rw [h, truncf_apply, transpose_ix2_apply]

/-- The first layer's right weights at the first dense layer's entry: the launched matrix, transposed. -/
theorem entry0_right : ∀ d o : Fin 64, (V1 m ρ c main_v32 : S64x64.Idx → EReal) (ix2 d o) = arg7 m c (ix2 o d) := by
  have h : (V1 m ρ c main_v32 : S64x64.Idx → EReal)
      = truncf .bf16 (transpose S64x64 [1, 0] (arg7 m c) transposes_S64x64_S64x64_1_0) bitsLt_bf16_f32 := by
    show StableHlo.after hostOps0 (W0 m ρ c) (Proc.devRef .tc main_v32) = _
    after_results_simp <;> rfl
  intro d o
  rw [h, truncf_apply, transpose_ix2_apply]

/-- The second layer's left weights at the first dense layer's entry: the launched matrix, transposed. -/
theorem entry0_third : ∀ (d : Fin 64) (o : Fin 32),
    (V1 m ρ c main_v34 : S64x32.Idx → EReal) (ix2 d o) = arg8 m c (ix2 o d) := by
  have h : (V1 m ρ c main_v34 : S64x32.Idx → EReal)
      = truncf .bf16 (transpose S64x32 [1, 0] (arg8 m c) transposes_S32x64_S64x32_1_0) bitsLt_bf16_f32 := by
    show StableHlo.after hostOps0 (W0 m ρ c) (Proc.devRef .tc main_v34) = _
    after_results_simp <;> rfl
  intro d o
  rw [h, truncf_apply, transpose_ix2_apply]

/-- The first layer's bias at the first dense layer's entry: the launched vector as a one-row matrix. -/
theorem entry0_bias : ∀ o : Fin 64, (V1 m ρ c main_v35 : S1x64.Idx → EReal) (ix2 (0 : Fin 1) o) = arg6 m c (ix1 o) := by
  have h : (V1 m ρ c main_v35 : S1x64.Idx → EReal) = shapeCast S1x64 (arg6 m c) shapeCasts_S64_S1x64 := by
    show StableHlo.after hostOps0 (W0 m ρ c) (Proc.devRef .tc main_v35) = _
    after_results_simp <;> rfl
  intro o
  rw [h, shapeCast_a_1a_apply]

end Cert.KernelIdeal.Host

end
-- ==== Proof.KernelHostSecond.lean ====
/-
  The arrays the second dense layer is entered with.

  Between the two dense layers the host averages the projected rows over each node's incoming edges: it wraps and
  gathers at the source words, adds up at the destination words and divides by the divisor column — the words and the
  column are the ones the first stretch of host operations left, which the first dense layer does not touch. It also
  transposes the second layer's right weight matrix and recasts its bias as a one-row matrix; the hidden array the
  first layer left is not written again. Read at an entry, the transposed matrix is the matrix at the swapped
  entry, and the one-row bias is the bias.
-/
import proofs.«100433_j5497558139163_2_alg».proof.Proof.KernelHostEdges

set_option maxRecDepth 16384

noncomputable section

namespace Cert.KernelIdeal.Host

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ) (ρ : Dev nD → PrngReg) (c : Dev nD)

/-! ## What the first dense layer leaves alone -/

/-- The source words after the first dense layer are the ones it was entered with. -/
theorem mid_src : (W2 m ρ c (Proc.devRef .tc main_v8) : S1600000.Idx → BitVec 32) = srcK (arg1 m c) (arg3 m c) :=
  (W2_of_ne m ρ c main_v8 (by decide)).trans (entry0_src m ρ c)

/-- The destination words after the first dense layer are the ones it was entered with. -/
theorem mid_dst : (W2 m ρ c (Proc.devRef .tc main_v9) : S1600000.Idx → BitVec 32) = dstK (arg1 m c) (arg3 m c) :=
  (W2_of_ne m ρ c main_v9 (by decide)).trans (entry0_dst m ρ c)

/-- The divisor column after the first dense layer is the one it was entered with. -/
theorem mid_degcol : (W2 m ρ c (Proc.devRef .tc main_v16) : S100000x1.Idx → EReal)
    = broadcastInDim Sage.SNc ![0] ceK.bNc (Sage.clampedDeg ceK (dstK (arg1 m c) (arg3 m c))) :=
  (W2_of_ne m ρ c main_v16 (by decide)).trans (entry0_degcol m ρ c)

/-- The second layer's bias argument is as launched when the second stretch of host operations starts. -/
theorem mid_arg9 : (W2 m ρ c (Proc.devRef .tc main_arg9) : S32.Idx → EReal) = arg9 m c := by
  refine (W2_of_ne m ρ c main_arg9 (by decide)).trans ?_
  show StableHlo.after hostOps0 (W0 m ρ c) (Proc.devRef .tc main_arg9) = _
  after_results_simp

/-- The second layer's right weight matrix is as launched when the second stretch of host operations starts. -/
theorem mid_arg10 : (W2 m ρ c (Proc.devRef .tc main_arg10) : S32x64.Idx → EReal) = arg10 m c := by
  refine (W2_of_ne m ρ c main_arg10 (by decide)).trans ?_
  show StableHlo.after hostOps0 (W0 m ρ c) (Proc.devRef .tc main_arg10) = _
  after_results_simp

/-! ## The second dense layer's entry -/

/-- The aggregated projected rows: the mean over incoming edges of the rows the first layer projected. -/
theorem entry1_agg : (V3 m ρ c main_v48 : S100000x32.Idx → EReal)
    = Sage.meanOver ceK c32K (W2 m ρ c (Proc.devRef .tc main_v36_1)) (srcK (arg1 m c) (arg3 m c)) (dstK (arg1 m c) (arg3 m c))
        (Sage.clampedDeg ceK (dstK (arg1 m c) (arg3 m c))) := by
  show StableHlo.after hostOps1 (W2 m ρ c) (Proc.devRef .tc main_v48) = _
  after_results_simp
  rw [mid_src, mid_dst, mid_degcol]
  unfold Sage.meanOver Sage.wrapped
  rw [scatter32_rec, gather32_rec]

/-- The hidden array is not written between the layers. -/
theorem entry1_hidden : (V3 m ρ c main_v36_0 : S100000x64.Idx → EReal) = W2 m ρ c (Proc.devRef .tc main_v36_0) := by
  show StableHlo.after hostOps1 (W2 m ρ c) (Proc.devRef .tc main_v36_0) = _
  after_results_simp

/-- The right weight matrix reaches the second layer transposed. -/
theorem entry1_weights (d : Fin 64) (o : Fin 32) :
    (V3 m ρ c main_v50 : S64x32.Idx → EReal) (ix2 d o) = arg10 m c (ix2 o d) := by
  have e : (V3 m ρ c main_v50 : S64x32.Idx → EReal)
      = truncf (F := Ideal) .bf16 (transpose S64x32 [1, 0] (arg10 m c) transposes_S32x64_S64x32_1_0) bitsLt_bf16_f32 := by
    show StableHlo.after hostOps1 (W2 m ρ c) (Proc.devRef .tc main_v50) = _
    after_results_simp
    rw [mid_arg10]
  rw [e, truncf_apply]
  exact transpose_ix2_apply (arg10 m c) transposes_S32x64_S64x32_1_0 d o

/-- The bias reaches the second layer as a one-row matrix. -/
theorem entry1_bias (o : Fin 32) : (V3 m ρ c main_v51 : S1x32.Idx → EReal) (ix2 (0 : Fin 1) o) = arg9 m c (ix1 o) := by
  have e : (V3 m ρ c main_v51 : S1x32.Idx → EReal) = shapeCast S1x32 (arg9 m c) shapeCasts_S32_S1x32 := by
    show StableHlo.after hostOps1 (W2 m ρ c) (Proc.devRef .tc main_v51) = _
    after_results_simp
    rw [mid_arg9]
    rfl
  rw [e]
  exact shapeCast_a_1a_apply (arg9 m c) shapeCasts_S32_S1x32 (0 : Fin 1) o

end Cert.KernelIdeal.Host

end
-- ==== Proof.KernelHost.lean ====
/-
  The kernel program's host operations, read back: all the readings together.

  Before the first dense layer: the edge words and the divisor column, the first mean and the input rows, and the
  transposed weight matrices and the recast bias, each as a function of the arrays the program was launched with.
  Between the two dense layers: the mean over incoming edges of the projected rows, the hidden array untouched, the
  second layer's right weight matrix transposed and its bias recast.
-/
import proofs.«100433_j5497558139163_2_alg».proof.Proof.KernelHostBase
import proofs.«100433_j5497558139163_2_alg».proof.Proof.KernelHostEdges
import proofs.«100433_j5497558139163_2_alg».proof.Proof.KernelHostMeans
import proofs.«100433_j5497558139163_2_alg».proof.Proof.KernelHostWeights
import proofs.«100433_j5497558139163_2_alg».proof.Proof.KernelHostSecond
-- ==== Proof.Spec.lean ====
/-
  What the two programs compute at one entry of the result, and why it is the same number.

  Both programs first form the hidden rows: for node `n` and hidden feature `o`, the maximum with zero of the sum of
  three terms — the neighbourhood mean of the input rows against row `o` of the first weight matrix, the node's own
  input row against row `o` of the second, and the bias. The kernel adds the two products first and the bias last,
  the reference adds the bias in the middle: the sum of three extended reals does not depend on that.

  For the second layer the reference averages the hidden rows over each node's incoming edges and multiplies the
  average by the left weight matrix; the kernel multiplies every hidden row by that matrix first and averages the
  products. Entry by entry these are `Σ_d ((0 + Σ_e h(e, d)) / D) · W(d)` and `(0 + Σ_e Σ_d h(e, d) · W(d)) / D`, equal when
  the hidden entries and the weights are real numbers and the divisor `D` is a real number other than zero — which
  they are: the hidden rows are built from finite inputs, and the divisor is an in-degree clamped below by one.
  The remaining terms (the node's own hidden row against the right weight matrix, and the bias) are the same on both
  sides, added in a different order.
-/
import proofs.«100433_j5497558139163_2_alg».proof.Proof.Neighbours
import proofs.«100433_j5497558139163_2_alg».proof.Proof.LibLayerLaw

noncomputable section

open scoped BigOperators

namespace Sage

open Idealize.ShloMosaic Idealize.ShloMosaic.ValueIdx Cert.LibRealEntries

/-- A 64 by 64 weight matrix (one row per output feature). -/
abbrev SW1 : Shape := ⟨2, ![64, 64]⟩
/-- A 32 by 64 weight matrix (one row per output feature). -/
abbrev SW2 : Shape := ⟨2, ![32, 64]⟩
/-- A bias of the first layer. -/
abbrev Sb1 : Shape := ⟨1, ![64]⟩
/-- A bias of the second layer. -/
abbrev Sb2 : Shape := ⟨1, ![32]⟩

/-- The zero word is the real number zero. -/
theorem zero_real : IsReal (Ideal.ofBits .f32 0x00000000#32) := ⟨0, by rw [Ideal.ofBits_zero_f32]; rfl⟩

/-! ## The hidden rows -/

/-- Entry `(n, o)` of the hidden rows, the two products added first and the bias last. -/
def hidden (M X : FVec Ideal (SN 64) .f32) (Wl Wr : FVec Ideal SW1 .f32) (b : FVec Ideal Sb1 .f32)
    (n : Fin 100000) (o : Fin 64) : EReal :=
  max ((∑ d : Fin 64, M (ix2 n d) * Wl (ix2 o d) + ∑ d : Fin 64, X (ix2 n d) * Wr (ix2 o d)) + b (ix1 o))
    (Ideal.ofBits .f32 0x00000000#32)

/-- The same entry with the bias added in the middle. -/
def hiddenMid (M X : FVec Ideal (SN 64) .f32) (Wl Wr : FVec Ideal SW1 .f32) (b : FVec Ideal Sb1 .f32)
    (n : Fin 100000) (o : Fin 64) : EReal :=
  max ((∑ d : Fin 64, M (ix2 n d) * Wl (ix2 o d) + b (ix1 o)) + ∑ d : Fin 64, X (ix2 n d) * Wr (ix2 o d))
    (Ideal.ofBits .f32 0x00000000#32)

/-- The order of the three summands does not matter. -/
theorem hiddenMid_eq (M X : FVec Ideal (SN 64) .f32) (Wl Wr : FVec Ideal SW1 .f32) (b : FVec Ideal Sb1 .f32)
    (n : Fin 100000) (o : Fin 64) : hiddenMid M X Wl Wr b n o = hidden M X Wl Wr b n o := by
  unfold hiddenMid hidden
  rw [add_right_comm]

/-- The hidden rows of real means, inputs, weights and bias are real. -/
theorem hidden_real (M X : FVec Ideal (SN 64) .f32) (Wl Wr : FVec Ideal SW1 .f32) (b : FVec Ideal Sb1 .f32)
    (hM : ∀ n d, IsReal (M (ix2 n d))) (hX : ∀ n d, IsReal (X (ix2 n d)))
    (hWl : ∀ o d, IsReal (Wl (ix2 o d))) (hWr : ∀ o d, IsReal (Wr (ix2 o d))) (hb : ∀ o, IsReal (b (ix1 o)))
    (n : Fin 100000) (o : Fin 64) : IsReal (hidden M X Wl Wr b n o) := by
  unfold hidden
  refine Cert.LayerLaw.isReal_max (IsReal.add (IsReal.add ?_ ?_) (hb o)) zero_real
  · exact IsReal.sum _ fun d => IsReal.mul (hM n d) (hWl o d)
  · exact IsReal.sum _ fun d => IsReal.mul (hX n d) (hWr o d)

/-! ## The result -/

/-- Entry `(n, o)` of the kernel's result: the node's hidden row against the right weights, plus the averaged
    projected rows, plus the bias. -/
def outProjectFirst (H : FVec Ideal (SN 64) .f32) (MT : FVec Ideal (SN 32) .f32) (Wr : FVec Ideal SW2 .f32)
    (b : FVec Ideal Sb2 .f32) (n : Fin 100000) (o : Fin 32) : EReal :=
  (∑ d : Fin 64, H (ix2 n d) * Wr (ix2 o d) + MT (ix2 n o)) + b (ix1 o)

/-- Entry `(n, o)` of the reference's result: the averaged hidden rows against the left weights, plus the bias, plus
    the node's hidden row against the right weights. -/
def outAverageFirst (H M2 : FVec Ideal (SN 64) .f32) (Wl Wr : FVec Ideal SW2 .f32) (b : FVec Ideal Sb2 .f32)
    (n : Fin 100000) (o : Fin 32) : EReal :=
  (∑ d : Fin 64, M2 (ix2 n d) * Wl (ix2 o d) + b (ix1 o)) + ∑ d : Fin 64, H (ix2 n d) * Wr (ix2 o d)

/-- Averaging the projected rows is projecting the averaged rows, for real hidden rows and real weights. -/
theorem mean_projected (ce : EdgeConds) (c64 : TableConds 64) (c32 : TableConds 32)
    (H : FVec Ideal (SN 64) .f32) (Tt : FVec Ideal (SN 32) .f32) (src dst : IVec SEv 32) (Wl : FVec Ideal SW2 .f32)
    (hH : ∀ p d, IsReal (H (ix2 p d))) (hW : ∀ o d, IsReal (Wl (ix2 o d)))
    (hT : ∀ (p : Fin 100000) (o : Fin 32), Tt (ix2 p o) = ∑ d : Fin 64, H (ix2 p d) * Wl (ix2 o d))
    (n : Fin 100000) (o : Fin 32) :
    meanOver ce c32 Tt src dst (clampedDeg ce dst) (ix2 n o)
      = ∑ d : Fin 64, meanOver ce c64 H src dst (clampedDeg ce dst) (ix2 n d) * Wl (ix2 o d) := by
  rw [meanOver_apply]
  rw [Finset.sum_congr rfl (fun e _ => hT (row ce src e) o)]
  rw [Cert.LayerLaw.project_then_average (into dst n) (row ce src) (fun p d => H (ix2 p d)) (fun d => Wl (ix2 o d))
    _ _ hH (hW o) Ideal.ofBits_zero_f32 (clampedDeg_real ce dst n)]
  exact Finset.sum_congr rfl fun d _ => by rw [meanOver_apply]

/-- THE TWO RESULTS AGREE at every entry. -/
theorem out_eq (ce : EdgeConds) (c64 : TableConds 64) (c32 : TableConds 32)
    (H : FVec Ideal (SN 64) .f32) (Tt : FVec Ideal (SN 32) .f32) (src dst : IVec SEv 32) (Wl Wr : FVec Ideal SW2 .f32)
    (b : FVec Ideal Sb2 .f32)
    (hH : ∀ p d, IsReal (H (ix2 p d))) (hW : ∀ o d, IsReal (Wl (ix2 o d)))
    (hT : ∀ (p : Fin 100000) (o : Fin 32), Tt (ix2 p o) = ∑ d : Fin 64, H (ix2 p d) * Wl (ix2 o d))
    (n : Fin 100000) (o : Fin 32) :
    outProjectFirst H (meanOver ce c32 Tt src dst (clampedDeg ce dst)) Wr b n o
      = outAverageFirst H (meanOver ce c64 H src dst (clampedDeg ce dst)) Wl Wr b n o := by
  unfold outProjectFirst outAverageFirst
  rw [mean_projected ce c64 c32 H Tt src dst Wl hH hW hT n o]
  rw [add_comm (∑ d : Fin 64, H (ix2 n d) * Wr (ix2 o d)), add_right_comm]

end Sage

end
-- ==== Proof.KernelValue.lean ====
/-
  The idealized kernel's result as one function of its arguments.

  After the first dense layer the hidden array holds, at `(n, o)`, the maximum with zero of the neighbourhood mean of
  the input rows against row `o` of the first weight matrix plus the node's own row against row `o` of the second plus
  the bias; the projected array holds each hidden row against the rows of the second layer's left weight matrix. The
  host lines between the layers average the projected rows over each node's incoming edges. After the second dense
  layer the result holds, at `(n, o)`, the node's hidden row against row `o` of the right weight matrix, plus that
  average, plus the bias. The weights reach the layers transposed and the biases as one-row matrices: read at an
  entry, a transposed matrix is the matrix at the swapped entry and the one-row bias is the bias.
-/
import proofs.«100433_j5497558139163_2_alg».proof.Proof.KernelRun
import proofs.«100433_j5497558139163_2_alg».proof.Proof.Dense1
import proofs.«100433_j5497558139163_2_alg».proof.Proof.Dense2
import proofs.«100433_j5497558139163_2_alg».proof.Proof.KernelHost
import proofs.«100433_j5497558139163_2_alg».proof.Proof.Spec

set_option quotPrecheck false
set_option maxRecDepth 16384

noncomputable section

open scoped BigOperators

namespace Cert.KernelIdeal.Whole

open Cert.KernelIdeal Cert.KernelIdeal.Gen Cert.KernelIdeal.Host Idealize.ShloMosaic Idealize.ShloMosaic.TcCoe
open Idealize.ShloMosaic.ValueIdx Idealize.SL.Sem

variable (m : (ℓ : Loc nD τ sig) → Buf (Elt Ideal) ℓ) (ρ : Dev nD → PrngReg) (c : Dev nD)

local notation "a0" => arg0 m c
local notation "a1" => arg1 m c
local notation "a3" => arg3 m c
local notation "a5" => arg5 m c
local notation "a6" => arg6 m c
local notation "a7" => arg7 m c
local notation "a8" => arg8 m c
local notation "a9" => arg9 m c
local notation "a10" => arg10 m c

/-- The first layer's neighbourhood means of the input rows. -/
def means1 : FVec Ideal (Sage.SN 64) .f32 :=
  Sage.meanOver ceK c64K a0 (srcK a1 a3) (dstK a1 a3) (Sage.clampedDeg ceK (dstK a1 a3))

/-- The hidden rows, as an array. -/
def hiddenK : FVec Ideal (Sage.SN 64) .f32 := Layers.asArray (Sage.hidden (means1 m c) a0 a5 a7 a6)

/-- The hidden rows of the arrays the first layer is entered with are the hidden rows of the arguments: the weights
    reach the layer transposed and the bias as a one-row matrix. -/
theorem hidden_rows_eq (n : Fin 100000) (o : Fin 64) :
    Layers.hiddenRows (V1 m ρ c main_v28) (V1 m ρ c main_arg0) (V1 m ρ c main_v30) (V1 m ρ c main_v32) (V1 m ρ c main_v35) n o
      = Sage.hidden (means1 m c) a0 a5 a7 a6 n o := by
  unfold Layers.hiddenRows Sage.hidden means1
  rw [entry0_means, entry0_input, entry0_bias]
  refine congrArg (fun s => max (s + a6 (ix1 o)) (Ideal.ofBits .f32 0x00000000#32)) ?_
  exact congrArg₂ (· + ·) (Finset.sum_congr rfl fun d _ => by rw [entry0_left])
    (Finset.sum_congr rfl fun d _ => by rw [entry0_right])

/-- After the first dense layer the hidden array is the hidden rows of the arguments. -/
theorem hidden_after : (W2 m ρ c (Proc.devRef .tc main_v36_0) : S100000x64.Idx → EReal) = hiddenK m c := by
  refine (W2_arr m ρ c 6).trans ?_
  rw [Layers.hidden_array]
  unfold hiddenK
  exact congrArg Layers.asArray (funext fun n => funext fun o => hidden_rows_eq m ρ c n o)

/-- After the first dense layer the projected array is the projected rows of the arrays the layer was entered with. -/
theorem projected_arr :
    (W2 m ρ c (Proc.devRef .tc main_v36_1) : S100000x32.Idx → EReal)
      = Layers.asArray (Layers.projectedRows (Layers.hiddenRows (V1 m ρ c main_v28) (V1 m ρ c main_arg0) (V1 m ρ c main_v30)
          (V1 m ρ c main_v32) (V1 m ρ c main_v35)) (V1 m ρ c main_v34)) :=
  (W2_arr m ρ c 7).trans (Layers.projected_array (V1 m ρ) c)

/-- After the first dense layer the projected array holds each hidden row against the left weights of the second layer. -/
theorem projected_after (p : Fin 100000) (o : Fin 32) :
    (W2 m ρ c (Proc.devRef .tc main_v36_1) : S100000x32.Idx → EReal) (ix2 p o)
      = ∑ d : Fin 64, hiddenK m c (ix2 p d) * a8 (ix2 o d) := by
  show (_ : EReal) = _
  rw [projected_arr, Layers.asArray_ix2]
  unfold Layers.projectedRows hiddenK
  refine Finset.sum_congr rfl fun d _ => ?_
  rw [entry0_third, hidden_rows_eq, Layers.asArray_ix2]

/-- After the second dense layer the result array is the result rows of the arrays the layer was entered with. -/
theorem result_arr :
    (W4 m ρ c (Proc.devRef .tc main_v52) : S100000x32.Idx → EReal)
      = Layers2.asArray (Layers2.resultRows (V3 m ρ c main_v48) (V3 m ρ c main_v36_0) (V3 m ρ c main_v50) (V3 m ρ c main_v51)) :=
  (W4_arr m ρ c 4).trans (Layers2.result_array (V3 m ρ) c)

/-- THE KERNEL'S RESULT at `(n, o)`: the node's hidden row against the right weights, plus the mean over incoming
    edges of the projected rows, plus the bias. -/
theorem result_after (n : Fin 100000) (o : Fin 32) :
    (W4 m ρ c (Proc.devRef .tc main_v52) : S100000x32.Idx → EReal) (ix2 n o)
      = Sage.outProjectFirst (hiddenK m c)
          (Sage.meanOver ceK c32K (W2 m ρ c (Proc.devRef .tc main_v36_1)) (srcK a1 a3) (dstK a1 a3)
            (Sage.clampedDeg ceK (dstK a1 a3))) a10 a9 n o := by
  rw [result_arr, Layers2.asArray_ix2]
  unfold Layers2.resultRows Sage.outProjectFirst
  rw [entry1_agg, entry1_bias, entry1_hidden, hidden_after]
  have hs : (∑ d : Fin 64, hiddenK m c (ix2 n d) * (V3 m ρ c main_v50 : S64x32.Idx → EReal) (ix2 d o))
      = ∑ d : Fin 64, hiddenK m c (ix2 n d) * a10 (ix2 o d) :=
    Finset.sum_congr rfl fun d _ => by rw [entry1_weights]
  rw [hs]

end Cert.KernelIdeal.Whole

end
-- ==== Proof.RefValue.lean ====
/-
  The reference program's intermediate values, named by what they are.

  The reference computes a two-layer graph network on the host, one array operation at a time. This file reads its
  intermediate arrays back as the mathematical objects the comparison with the kernel is stated in.

  The edge words. The reference joins the two index arrays side by side and cuts the rows out: row 0 gives the
  source words of all edges, row 1 the destination words.

  The divisor. Ones are added into a zero vector at the destination words and the maximum with one is taken: the
  clamped in-degree of every node. The program computes it twice, once per layer, by the same operations.

  The means. In each layer the rows of a table (the input rows in the first layer, the hidden rows in the second)
  are gathered at the wrapped source words, added into a zero table at the destination words, and divided by the
  clamped in-degrees spread along the columns: the neighbourhood mean of the table.

  The hidden rows. Entry (n, o) is the maximum with zero of: the inner product of row n of the first mean with row
  o of the first weight matrix, plus entry o of the bias, plus the inner product of row n of the input with row o
  of the second weight matrix. The weight matrices enter transposed into a matrix product, which at an entry is the
  sum over the 64 contracted positions; the bias enters spread over the rows.

  The result. Entry (n, o) is the inner product of row n of the second mean with row o of the third weight matrix,
  plus entry o of the second bias, plus the inner product of row n of the hidden rows with row o of the fourth
  weight matrix.

  The array-level statements hold because, once the chain of operations is written out, the two sides are the same
  sequence of operations on the same operands; the entry-level statements chain the reading of each operation at an
  index and identify the indices read.
-/
import proofs.«100433_j5497558139163_2_alg».proof.Proof.Gen.ReferenceIdeal.Read
import proofs.«100433_j5497558139163_2_alg».proof.Proof.Neighbours
import proofs.«100433_j5497558139163_2_alg».proof.Proof.EdgeWords
import proofs.«100433_j5497558139163_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The shape conditions and the dimension records -/

/-- The shape conditions of the operations on the edge words and the per-node numbers hold. -/
theorem ceR : Sage.EdgeConds :=
  ⟨bcast_S_S1600000, bcast_S_S100000, bcast_S1600000_S1600000x1_0, bcast_S100000_S100000x1_0,
    scatter_S100000_S1600000x1_S1600000_n_0_0_1_wf⟩

/-- The shape conditions of the operations on a table with 64 columns hold. -/
theorem c64R : Sage.TableConds 64 :=
  ⟨bcast_S_S100000x64, bcast_S100000x1_S100000x64_0_1, gather_S100000x64_S1600000x1_S1600000x64_1_0_n_n_0_1_164_wf,
    scatter_S100000x64_S1600000x1_S1600000x64_1_0_0_1_wf⟩

/-- The program's scalar scatter record is the vector scatter's dimension numbers. -/
theorem scatterV_rec :
    scatter_S100000_S1600000x1_S1600000_n_0_0_1 = SageLib.vecScatterDims 100000 1600000 ceR.wfV := rfl

/-- The program's row scatter record is the row scatter's dimension numbers. -/
theorem scatterT_rec :
    scatter_S100000x64_S1600000x1_S1600000x64_1_0_0_1 = SageLib.rowScatterDims2 100000 1600000 64 c64R.wfS := rfl

/-- The program's row gather record is the row gather's dimension numbers. -/
theorem gatherT_rec :
    gather_S100000x64_S1600000x1_S1600000x64_1_0_n_n_0_1_164 = SageLib.rowGatherDims2 100000 1600000 64 c64R.wfG := rfl

/-! ## The edge words -/

/-- The source words of all edges: row 0 of the two index arrays joined side by side. -/
def srcR (x1 x3 : IVec S2x800000 32) : IVec Sage.SEv 32 :=
  Sage.Words.wordsJoinFirst ![0, 0] concatenates_S2x800000_S2x800000_S2x1600000_d1 slices_S2x1600000_S1x1600000_0_0
    shapeCasts_S1x1600000_S1600000 x1 x3

/-- The destination words of all edges: row 1 of the two index arrays joined side by side. -/
def dstR (x1 x3 : IVec S2x800000 32) : IVec Sage.SEv 32 :=
  Sage.Words.wordsJoinFirst ![1, 0] concatenates_S2x800000_S2x800000_S2x1600000_d1 slices_S2x1600000_S1x1600000_1_0
    shapeCasts_S1x1600000_S1600000 x1 x3

section Arrays
variable (x0 : FVec Ideal S100000x64 .f32) (x1 x3 : IVec S2x800000 32) (x5 : FVec Ideal S64x64 .f32)
  (x6 : FVec Ideal S64 .f32) (x7 : FVec Ideal S64x64 .f32) (x8 : FVec Ideal S32x64 .f32) (x9 : FVec Ideal S32 .f32)
  (x10 : FVec Ideal S32x64 .f32)

/-- The reference's source words are the joined-first arrangement of row 0. -/
theorem src_ref : val_main_v3 (F := Ideal) x1 x3 = srcR x1 x3 := by
  unfold val_main_v3 val_main_v2 val_main_v0 srcR Sage.Words.wordsJoinFirst
  rfl

/-- The reference's destination words are the joined-first arrangement of row 1. -/
theorem dst_ref : val_main_v5 (F := Ideal) x1 x3 = dstR x1 x3 := by
  unfold val_main_v5 val_main_v4 val_main_v0 dstR Sage.Words.wordsJoinFirst
  rfl

/-! ## The divisor -/

/-- The first layer's divisor is the clamped in-degree. -/
theorem deg_ref : val_main_v21 (F := Ideal) x1 x3 = Sage.clampedDeg ceR (dstR x1 x3) := by
  unfold val_main_v21 val_main_v19 val_main_v20 val_main_v18 val_main_v17 val_main_v16 val_main_cst_1 val_main_cst_2
    val_main_cst_3 Sage.clampedDeg
  rw [dst_ref, scatterV_rec]

/-- The second layer's divisor is the same clamped in-degree. -/
theorem deg_ref2 : val_main_v49 (F := Ideal) x1 x3 = Sage.clampedDeg ceR (dstR x1 x3) := by
  unfold val_main_v49 val_main_v47 val_main_v48 val_main_v46 val_main_v45 val_main_v44 val_main_cst_7 val_main_cst_8
    val_main_cst_9 Sage.clampedDeg
  rw [dst_ref, scatterV_rec]

/-! ## The means -/

/-- The first layer's mean is the neighbourhood mean of the input rows. -/
theorem mean1_ref : val_main_v24 (F := Ideal) x0 x1 x3
    = Sage.meanOver ceR c64R x0 (srcR x1 x3) (dstR x1 x3) (Sage.clampedDeg ceR (dstR x1 x3)) := by
  unfold val_main_v24 val_main_v15 val_main_v23 val_main_v22 val_main_v13 val_main_cst val_main_v14 val_main_v12
    val_main_v11 val_main_v10 val_main_v7 val_main_v9 val_main_v6 val_main_v8 val_main_c val_main_c_0
    Sage.meanOver Sage.wrapped
  rw [deg_ref, src_ref, dst_ref, scatterT_rec, gatherT_rec]

/-- The second layer's mean is the neighbourhood mean of the hidden rows. -/
theorem mean2_ref : val_main_v52 (F := Ideal) x0 x1 x3 x5 x6 x7
    = Sage.meanOver ceR c64R (val_main_v33 (F := Ideal) x0 x1 x3 x5 x6 x7) (srcR x1 x3) (dstR x1 x3)
        (Sage.clampedDeg ceR (dstR x1 x3)) := by
  unfold val_main_v52 val_main_v43 val_main_v51 val_main_v50 val_main_v41 val_main_cst_6 val_main_v42 val_main_v40
    val_main_v39 val_main_v38 val_main_v35 val_main_v37 val_main_v34 val_main_v36 val_main_c_4 val_main_c_5
    Sage.meanOver Sage.wrapped
  rw [deg_ref2, src_ref, dst_ref, scatterT_rec, gatherT_rec]

/-! ## The hidden rows and the result, entry by entry -/

/-- The index a matrix product reads its left operand at, for result entry (n, o) and contracted position k. -/
theorem lidx26 (n : Fin 100000) (o k : Fin 64) : lidx_main_v26 (ix2 n o) k = ix2 n k :=
  funext fun a => Fin.ext (by match a with | ⟨0, _⟩ => rfl | ⟨1, _⟩ => rfl)

/-- The entry of the first weight matrix the transposed operand reads, for result entry (n, o) and position k. -/
theorem ridx26 (n : Fin 100000) (o k : Fin 64) : idx_main_v25 (ridx_main_v26 (ix2 n o) k) = ix2 o k :=
  funext fun a => Fin.ext (by match a with | ⟨0, _⟩ => rfl | ⟨1, _⟩ => rfl)

theorem lidx31 (n : Fin 100000) (o k : Fin 64) : lidx_main_v31 (ix2 n o) k = ix2 n k :=
  funext fun a => Fin.ext (by match a with | ⟨0, _⟩ => rfl | ⟨1, _⟩ => rfl)

theorem ridx31 (n : Fin 100000) (o k : Fin 64) : idx_main_v30 (ridx_main_v31 (ix2 n o) k) = ix2 o k :=
  funext fun a => Fin.ext (by match a with | ⟨0, _⟩ => rfl | ⟨1, _⟩ => rfl)

/-- The bias entry read at result entry (n, o) of the first layer. -/
theorem bidx28 (n : Fin 100000) (o : Fin 64) : idx_main_v27 (idx_main_v28 (ix2 n o)) = ix1 o :=
  funext fun a => Fin.ext (by match a with | ⟨0, _⟩ => rfl)

theorem lidx54 (n : Fin 100000) (o : Fin 32) (k : Fin 64) : lidx_main_v54 (ix2 n o) k = ix2 n k :=
  funext fun a => Fin.ext (by match a with | ⟨0, _⟩ => rfl | ⟨1, _⟩ => rfl)

theorem ridx54 (n : Fin 100000) (o : Fin 32) (k : Fin 64) : idx_main_v53 (ridx_main_v54 (ix2 n o) k) = ix2 o k :=
  funext fun a => Fin.ext (by match a with | ⟨0, _⟩ => rfl | ⟨1, _⟩ => rfl)

theorem lidx59 (n : Fin 100000) (o : Fin 32) (k : Fin 64) : lidx_main_v59 (ix2 n o) k = ix2 n k :=
  funext fun a => Fin.ext (by match a with | ⟨0, _⟩ => rfl | ⟨1, _⟩ => rfl)

theorem ridx59 (n : Fin 100000) (o : Fin 32) (k : Fin 64) : idx_main_v58 (ridx_main_v59 (ix2 n o) k) = ix2 o k :=
  funext fun a => Fin.ext (by match a with | ⟨0, _⟩ => rfl | ⟨1, _⟩ => rfl)

/-- The bias entry read at result entry (n, o) of the second layer. -/
theorem bidx56 (n : Fin 100000) (o : Fin 32) : idx_main_v55 (idx_main_v56 (ix2 n o)) = ix1 o :=
  funext fun a => Fin.ext (by match a with | ⟨0, _⟩ => rfl)

/-- Entry (n, o) of the reference's hidden rows: the first mean against the first weights, plus the bias, plus the
    input row against the second weights, then the maximum with zero. -/
theorem hidden_ref (n : Fin 100000) (o : Fin 64) :
    val_main_v33 (F := Ideal) x0 x1 x3 x5 x6 x7 (ix2 n o)
      = Sage.hiddenMid (val_main_v24 (F := Ideal) x0 x1 x3) x0 x5 x7 x6 n o := by
  have s1 : (∑ k : Fin 64, val_main_v24 (F := Ideal) x0 x1 x3 (lidx_main_v26 (ix2 n o) k)
        * val_main_v25 (F := Ideal) x5 (ridx_main_v26 (ix2 n o) k))
      = ∑ d : Fin 64, val_main_v24 (F := Ideal) x0 x1 x3 (ix2 n d) * x5 (ix2 o d) :=
    Finset.sum_congr rfl fun k _ => by rw [val_main_v25_apply, lidx26, ridx26]
  have s2 : (∑ k : Fin 64, x0 (lidx_main_v31 (ix2 n o) k) * val_main_v30 (F := Ideal) x7 (ridx_main_v31 (ix2 n o) k))
      = ∑ d : Fin 64, x0 (ix2 n d) * x7 (ix2 o d) :=
    Finset.sum_congr rfl fun k _ => by rw [val_main_v30_apply, lidx31, ridx31]
  rw [val_main_v33_apply, val_main_v32_apply, val_main_v29_apply, val_main_v26_apply, val_main_v31_apply,
    val_main_v28_apply, val_main_v27_apply, val_main_call0_v0_apply, val_main_call0_cst_apply, s1, s2, bidx28,
    Ideal.maximumf_def, Ideal.addf_def, Ideal.addf_def, Ideal.ofBits_def]
  rfl

/-- Entry (n, o) of the reference's result: the second mean against the third weights, plus the bias, plus the
    hidden row against the fourth weights. -/
theorem out_ref (n : Fin 100000) (o : Fin 32) :
    val_main_v60 (F := Ideal) x0 x1 x3 x5 x6 x7 x8 x9 x10 (ix2 n o)
      = Sage.outAverageFirst (val_main_v33 (F := Ideal) x0 x1 x3 x5 x6 x7)
          (val_main_v52 (F := Ideal) x0 x1 x3 x5 x6 x7) x8 x10 x9 n o := by
  have s1 : (∑ k : Fin 64, val_main_v52 (F := Ideal) x0 x1 x3 x5 x6 x7 (lidx_main_v54 (ix2 n o) k)
        * val_main_v53 (F := Ideal) x8 (ridx_main_v54 (ix2 n o) k))
      = ∑ d : Fin 64, val_main_v52 (F := Ideal) x0 x1 x3 x5 x6 x7 (ix2 n d) * x8 (ix2 o d) :=
    Finset.sum_congr rfl fun k _ => by rw [val_main_v53_apply, lidx54, ridx54]
  have s2 : (∑ k : Fin 64, val_main_v33 (F := Ideal) x0 x1 x3 x5 x6 x7 (lidx_main_v59 (ix2 n o) k)
        * val_main_v58 (F := Ideal) x10 (ridx_main_v59 (ix2 n o) k))
      = ∑ d : Fin 64, val_main_v33 (F := Ideal) x0 x1 x3 x5 x6 x7 (ix2 n d) * x10 (ix2 o d) :=
    Finset.sum_congr rfl fun k _ => by rw [val_main_v58_apply, lidx59, ridx59]
  rw [val_main_v60_apply, val_main_v57_apply, val_main_v54_apply, val_main_v59_apply, val_main_v56_apply,
    val_main_v55_apply, s1, s2, bidx56, Ideal.addf_def, Ideal.addf_def]
  rfl

end Arrays

end Cert.ReferenceIdeal.RefValue

end
-- ==== Proof.LibFiniteEntry.lean ====
/-
  "The absolute value is below +∞" makes an extended real a real number.

  A test that an array holds finite numbers compares, entry by entry, the absolute value `max v (-v)` with the float
  word `0x7F800000`, which is `+∞` (all exponent bits set, zero fraction, sign clear). An extended real whose absolute
  value is below `⊤` is neither `⊤` (whose absolute value is `⊤`) nor `⊥` (likewise): it is a real number.
-/
import Idealize.ShloMosaic.PureOps.Ideal.Laws

noncomputable section

namespace Cert.FiniteEntry

open Idealize.ShloMosaic

/-- The word the test compares against is `+∞`. -/
theorem inf_word : Ideal.ofBits .f32 0x7F800000#32 = (⊤ : EReal) := by simp [Ideal.ofBits, Ideal.ieee]

/-- An extended real whose absolute value is below `+∞` is a real number. -/
theorem real_of_abs_lt_top (v : EReal) (h : max v (-v) < ⊤) : ∃ r : ℝ, v = r := by
  induction v using EReal.rec with
  | bot => exact absurd h (by simp)
  | coe r => exact ⟨r, rfl⟩
  | top => exact absurd h (by simp)

/-- One entry's test `|v| < +∞` being true (the comparison's bit is 1) makes the entry a real number. -/
theorem real_of_test (v : EReal) (h : Ideal.cmp .olt (max v (-v)) (Ideal.ofBits .f32 0x7F800000#32) = 1#1) :
    ∃ r : ℝ, v = r := by
  rw [inf_word] at h
  refine real_of_abs_lt_top v ?_
  by_contra hn
  simp [Ideal.cmp, hn] at h

end Cert.FiniteEntry

end
-- ==== Proof.FiniteInputs.lean ====
/-
  The finiteness precondition, read back: every tested argument array holds real numbers.

  The precondition is the conjunction of nine tests, one per floating-point argument. Each test asks, entry by
  entry, whether the absolute value of the entry is below plus infinity, and then takes the conjunction of all the
  answers of the array. Read on the extended reals, a conjunction of bits that is 1 had every bit equal to 1, so
  when the precondition holds every entry of every tested array has an absolute value below the top element, and
  such an extended real is a real number.

  Steps: the conjunction of the nine tests being 1 gives each test being 1; a test being 1 gives the comparison's
  bit being 1 at every index of its array; the bit being 1 at an index makes the entry there a real number.
-/
import proofs.«100433_j5497558139163_2_alg».proof.Pre_finite_inputs
import proofs.«100433_j5497558139163_2_alg».proof.Proof.Gen.Pre_finite_inputs
import Idealize.ShloMosaic.Lib.ReduceAll
import proofs.«100433_j5497558139163_2_alg».proof.Proof.LibFiniteEntry
import proofs.«100433_j5497558139163_2_alg».proof.Proof.LibRealEntries

noncomputable section

namespace Cert.FiniteInputs

open Cert.Pre_finite_inputs Cert.LibRealEntries Idealize.ShloMosaic

/-- The shape with no axes has exactly one index. -/
instance subsingleton_scalar_idx : Subsingleton S_.Idx := ⟨fun _ _ => funext fun d => d.elim0⟩

/-- One test read back: if the conjunction, over a whole array, of the bits "the absolute value of the entry is
    below plus infinity" is 1, then every entry of the array is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf a) (broadcastInDim s ![] hb (constant (F := Ideal) S_ .f32 0x7F800000#32)))
        init hr hu j = 1#1) :
    ∀ i, IsReal (a i) := by
  intro i
  have hi := Host.reduce_andi_all _ init hr hu j e i
  exact Cert.FiniteEntry.real_of_test (a i) hi

/-- When the finiteness precondition holds, the node features and all six weight and bias arrays hold real
    numbers at every index. -/
theorem real_args [hF : Cert.Pre_finite_inputs.Facts] (a0 : FVec Ideal S100000x64 .f32) (a1 : IVec S2x800000 32)
    (a2 : FVec Ideal S800000 .f32) (a3 : IVec S2x800000 32) (a4 : FVec Ideal S800000 .f32)
    (a5 : FVec Ideal S64x64 .f32) (a6 : FVec Ideal S64 .f32) (a7 : FVec Ideal S64x64 .f32)
    (a8 : FVec Ideal S32x64 .f32) (a9 : FVec Ideal S32 .f32) (a10 : FVec Ideal S32x64 .f32)
    (h : fn (F := Ideal) a0 a1 a2 a3 a4 a5 a6 a7 a8 a9 a10 = fun _ => 1#1) :
    (∀ i, IsReal (a0 i)) ∧ (∀ i, IsReal (a5 i)) ∧ (∀ i, IsReal (a6 i)) ∧ (∀ i, IsReal (a7 i)) ∧
      (∀ i, IsReal (a8 i)) ∧ (∀ i, IsReal (a9 i)) ∧ (∀ i, IsReal (a10 i)) := by
  have h0 := congrFun h (fun d => d.elim0)
  dsimp only [fn, fn_part1, fn_part2] at h0
  -- the conjunction of the nine tests, peeled from the outside
  obtain ⟨h38, t10⟩ := IntOp.andi_eq_one.1 h0
  obtain ⟨h33, t9⟩ := IntOp.andi_eq_one.1 h38
  obtain ⟨h28, t8⟩ := IntOp.andi_eq_one.1 h33
  obtain ⟨h23, t7⟩ := IntOp.andi_eq_one.1 h28
  obtain ⟨h18, t6⟩ := IntOp.andi_eq_one.1 h23
  obtain ⟨h13, t5⟩ := IntOp.andi_eq_one.1 h18
  obtain ⟨h8, _⟩ := IntOp.andi_eq_one.1 h13
  obtain ⟨t0, _⟩ := IntOp.andi_eq_one.1 h8
  exact ⟨real_of_all a0 _ _ _ _ _ t0, real_of_all a5 _ _ _ _ _ t5, real_of_all a6 _ _ _ _ _ t6,
    real_of_all a7 _ _ _ _ _ t7, real_of_all a8 _ _ _ _ _ t8, real_of_all a9 _ _ _ _ _ t9,
    real_of_all a10 _ _ _ _ _ t10⟩

end Cert.FiniteInputs

end
-- ==== Proof.Bridge.lean ====
/-
  The two idealized programs end with the same result.

  Read at entry `(n, o)`, the reference's result is the mean over incoming edges of the hidden rows against row `o` of the
  left weight matrix, plus the bias, plus the node's own hidden row against row `o` of the right weight matrix; the
  kernel's is the node's own hidden row against the right weights, plus the mean over incoming edges of the hidden rows
  ALREADY multiplied by the left weights, plus the bias. The hidden rows are the same array on both sides (the edge
  words are the same vector in the two programs' arrangements, and the three summands of a hidden entry are added in
  two orders). The inputs are finite, so the hidden entries and the weights are real numbers, and the divisor, an
  in-degree clamped below by one, is a real number other than zero: averaging the projected rows is then projecting
  the averaged rows, and the two results agree entry by entry.
-/
import proofs.«100433_j5497558139163_2_alg».proof.Proof.KernelValue
import proofs.«100433_j5497558139163_2_alg».proof.Proof.RefValue
import proofs.«100433_j5497558139163_2_alg».proof.Proof.FiniteInputs

set_option maxRecDepth 16384

noncomputable section

open scoped BigOperators

namespace Cert.Proof.Bridge

open Idealize.ShloMosaic Idealize.ShloMosaic.TcCoe Idealize.ShloMosaic.ValueIdx Idealize.SL.Sem Cert.LibRealEntries
open Cert.KernelIdeal.Host Cert.KernelIdeal.Whole Cert.ReferenceIdeal.RefValue

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The reference's last stage, at the kernel's argument arrays, is the array the kernel's run ends with — when every
    float argument is finite. -/
theorem results_agree
    (hpre : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) = fun _ => 1#1) :
    Cert.ReferenceIdeal.Read.val_main_v60 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))
      = Cert.KernelIdeal.Gen.W4 m ρ c (Proc.devRef .tc Cert.KernelIdeal.main_v52) := by
  obtain ⟨h0, h5, h6, h7, h8, h9, h10⟩ := Cert.FiniteInputs.real_args _ _ _ _ _ _ _ _ _ _ _ hpre
  have hsrc : srcR (m ((c : Thread Cert.KernelIdeal.nD Cert.KernelIdeal.τ).loc Cert.KernelIdeal.main_arg1)) (m ((c : Thread Cert.KernelIdeal.nD Cert.KernelIdeal.τ).loc Cert.KernelIdeal.main_arg3)) = srcK (m ((c : Thread Cert.KernelIdeal.nD Cert.KernelIdeal.τ).loc Cert.KernelIdeal.main_arg1)) (m ((c : Thread Cert.KernelIdeal.nD Cert.KernelIdeal.τ).loc Cert.KernelIdeal.main_arg3)) :=
    (Sage.Words.words_eq (0 : Fin 2) _ _ _ _ _ _ _ _).symm
  have hdst : dstR (m ((c : Thread Cert.KernelIdeal.nD Cert.KernelIdeal.τ).loc Cert.KernelIdeal.main_arg1)) (m ((c : Thread Cert.KernelIdeal.nD Cert.KernelIdeal.τ).loc Cert.KernelIdeal.main_arg3)) = dstK (m ((c : Thread Cert.KernelIdeal.nD Cert.KernelIdeal.τ).loc Cert.KernelIdeal.main_arg1)) (m ((c : Thread Cert.KernelIdeal.nD Cert.KernelIdeal.τ).loc Cert.KernelIdeal.main_arg3)) :=
    (Sage.Words.words_eq (1 : Fin 2) _ _ _ _ _ _ _ _).symm
  -- the hidden rows are one array
  have hHeq : Cert.ReferenceIdeal.Read.val_main_v33 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) = hiddenK m c := by
    funext j
    obtain ⟨p, d, rfl⟩ : ∃ (p : Fin 100000) (d : Fin 64), j = ix2 p d := ⟨j 0, j 1, eq_ix2 j⟩
    rw [hidden_ref, Sage.hiddenMid_eq, mean1_ref, hsrc, hdst]
    rfl
  -- they are real
  have hM : ∀ (n : Fin 100000) (d : Fin 64), IsReal (means1 m c (ix2 n d)) := fun n d =>
    Sage.meanOver_real ceK c64K _ _ _ (fun p o => h0 _) n d
  have hH : ∀ (p : Fin 100000) (d : Fin 64), IsReal (hiddenK m c (ix2 p d)) := fun p d =>
    Sage.hidden_real _ _ _ _ _ hM (fun n k => h0 _) (fun o k => h5 _) (fun o k => h7 _) (fun o => h6 _) p d
  funext i
  obtain ⟨n, o, rfl⟩ : ∃ (n : Fin 100000) (o : Fin 32), i = ix2 n o := ⟨i 0, i 1, eq_ix2 i⟩
  rw [out_ref, mean2_ref, hHeq, hsrc, hdst]
  refine Eq.trans ?_ (result_after m ρ c n o).symm
  exact (Sage.out_eq ceK c64K c32K (hiddenK m c) _ _ _ _ _ _ hH (fun o k => h8 _) (projected_after m ρ c) n o).symm

end Cert.Proof.Bridge

end
-- ==== Proof.lean ====
/-
  A two-layer mean-aggregation graph network, its kernel against its reference, on the extended reals.

  The kernel computes each layer's dense part on the matrix unit, in blocks of 4000 nodes, and the irregular part
  (gather the source rows of the edges, add them up at their destinations, divide by the clamped in-degree) on the
  host; for the second layer it multiplies the hidden rows by the left weight matrix BEFORE averaging them over the
  incoming edges, which the reference does after. The claim has five parts. The three programs run to completion
  without a fault and leave their argument arrays unchanged: for the two kernel programs that is the generated frame,
  for the reference its generated run with the result dropped. The idealized kernel is the kernel's own text read on
  the extended reals: the ideal pass rewrote nothing, so there is nothing to preserve. And the two idealized programs,
  run from memories that agree on the arguments, end with equal results: the kernel's run ends with its result array at
  the last segment boundary's contents, the reference's run with its last stage, and under the precondition (every
  float input finite) these are one array — averaging projected rows is projecting averaged rows when every entry is a
  real number and the divisor is a real number other than zero.
-/
import proofs.«100433_j5497558139163_2_alg».proof.Defs
import proofs.«100433_j5497558139163_2_alg».proof.Proof.Gen.Kernel
import proofs.«100433_j5497558139163_2_alg».proof.Proof.Gen.Kernel.Skeleton
import proofs.«100433_j5497558139163_2_alg».proof.Proof.Gen.Kernel.Launch
import proofs.«100433_j5497558139163_2_alg».proof.Proof.Gen.Kernel.Points
import proofs.«100433_j5497558139163_2_alg».proof.Proof.Gen.Kernel.Frame
import proofs.«100433_j5497558139163_2_alg».proof.Proof.Gen.KernelIdeal
import proofs.«100433_j5497558139163_2_alg».proof.Proof.Gen.KernelIdeal.Skeleton
import proofs.«100433_j5497558139163_2_alg».proof.Proof.Gen.KernelIdeal.Launch
import proofs.«100433_j5497558139163_2_alg».proof.Proof.Gen.KernelIdeal.Points
import proofs.«100433_j5497558139163_2_alg».proof.Proof.Gen.KernelIdeal.Frame
import proofs.«100433_j5497558139163_2_alg».proof.Proof.Gen.ReferenceIdeal
import proofs.«100433_j5497558139163_2_alg».proof.Proof.Gen.Pre_finite_inputs
import proofs.«100433_j5497558139163_2_alg».proof.Proof.Gen.ReferenceIdeal.Run
import proofs.«100433_j5497558139163_2_alg».proof.Proof.Gen.ReferenceIdeal.Read
import proofs.«100433_j5497558139163_2_alg».proof.Proof.KernelRun
import proofs.«100433_j5497558139163_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, with every float argument finite, the two idealized programs end with
    the same result array and unchanged arguments. -/
theorem algebraic : Cert.algebraic_KernelIdeal_ReferenceIdeal := by
  intro m ρ m' ρ' hpre hagree
  refine ⟨fun c => Cert.KernelIdeal.Gen.W4 m ρ c (Proc.devRef .tc Cert.KernelIdeal.main_v52),
    Cert.KernelIdeal.Out.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq]
  obtain ⟨e0, e1, e2, e3, e4, e5, e6, e7, e8, e9, e10⟩ := hagree c
  rw [e0, e1, e3, e5, e6, e7, e8, e9, e10]
  exact Cert.Proof.Bridge.results_agree m ρ c (hpre c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
